-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S4x16x1024x1 : Shape := ⟨4, ![4, 16, 1024, 1]⟩
abbrev S4x1x1024x1024 : Shape := ⟨4, ![4, 1, 1024, 1024]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel
  bcast_S_S4x16x1024x1 : S_.BroadcastsInDim S4x16x1024x1 (![] : Fin 0 → Fin S4x16x1024x1.rank)
  reducesTo_S4x16x1024x1_S_d0_1_2_3 : S4x16x1024x1.ReducesTo [0, 1, 2, 3] S_

variable [Facts]

def fn_part1 {F : FTy → Type} [FloatOps F] (main_v13 : IVec S_ 1) (main_v16 : IVec S4x16x1024x1 1) : IVec S_ 1 :=
  let main_c_5 : IVec S_ 1 := constantI S_ 1 1#1
  let main_v17 : IVec S_ 1 := (fun x v => Host.reduce IntOp.andi x v reducesTo_S4x16x1024x1_S_d0_1_2_3 h_S_) main_v16 main_c_5
  let main_v18 : IVec S_ 1 := andi main_v13 main_v17
  main_v18

def fn {F : FTy → Type} [FloatOps F] (main_arg0 : FVec F S4x16x1024x64 .f32) (main_arg1 : FVec F S4x16x1024x64 .f32) (main_arg2 : FVec F S4x16x1024x64 .f32) (main_arg3 : FVec F S4x16x1024x1 .f32) (main_arg4 : IVec S4x1x1024x1024 32) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  let main_v14 : FVec F S4x16x1024x1 .f32 := Host.absf main_arg3
  let main_cst_4 : FVec F S_ .f32 := constant S_ .f32 0x7F800000#32
  let main_v15 : FVec F S4x16x1024x1 .f32 := broadcastInDim S4x16x1024x1 ![] bcast_S_S4x16x1024x1 main_cst_4
  let main_v16 : IVec S4x16x1024x1 1 := cmpf .olt main_v14 main_v15
  fn_part1 (F := F) main_v13 main_v16
-- ==== Kernel.lean ====
abbrev S4x16x1024x64 : Shape := ⟨4, ![4, 16, 1024, 64]⟩
abbrev S4x16x1024x1 : Shape := ⟨4, ![4, 16, 1024, 1]⟩
abbrev S4x1x1024x1024 : Shape := ⟨4, ![4, 1, 1024, 1024]⟩
abbrev S4x16x1024x1024 : Shape := ⟨4, ![4, 16, 1024, 1024]⟩
abbrev S1x1x256x64 : Shape := ⟨4, ![1, 1, 256, 64]⟩
abbrev S1x16x1024x64 : Shape := ⟨4, ![1, 16, 1024, 64]⟩
abbrev S1x1x256x1 : Shape := ⟨4, ![1, 1, 256, 1]⟩
abbrev S1x1x256x1024 : Shape := ⟨4, ![1, 1, 256, 1024]⟩
abbrev S256x64 : Shape := ⟨2, ![256, 64]⟩
abbrev S256x1 : Shape := ⟨2, ![256, 1]⟩
abbrev S1x1x1024x64 : Shape := ⟨4, ![1, 1, 1024, 64]⟩
abbrev S1024x64 : Shape := ⟨2, ![1024, 64]⟩
abbrev S256x1024 : Shape := ⟨2, ![256, 1024]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x1, .f32⟩
  | .hbm, ⟨4, _⟩ => ⟨S4x1x1024x1024, .i32⟩
  | .hbm, ⟨5, _⟩ => ⟨S4x16x1024x64, .f32⟩
  | .hbm, ⟨6, _⟩ => ⟨S4x16x1024x1024, .f32⟩
  | .local _ .vmem, ⟨0, _⟩ => ⟨S1x1x256x64, .f32⟩
  | .local _ .vmem, ⟨1, _⟩ => ⟨S1x1x256x64, .f32⟩
  | .local _ .vmem, ⟨2, _⟩ => ⟨S1x16x1024x64, .f32⟩
  | .local _ .vmem, ⟨3, _⟩ => ⟨S1x16x1024x64, .f32⟩
  | .local _ .vmem, ⟨4, _⟩ => ⟨S1x1x256x1, .f32⟩
  | .local _ .vmem, ⟨5, _⟩ => ⟨S1x1x256x1, .f32⟩
  | .local _ .vmem, ⟨6, _⟩ => ⟨S1x1x256x1024, .i32⟩
  | .local _ .vmem, ⟨7, _⟩ => ⟨S1x1x256x1024, .i32⟩
  | .local _ .vmem, ⟨8, _⟩ => ⟨S1x1x256x64, .f32⟩
  | .local _ .vmem, ⟨9, _⟩ => ⟨S1x1x256x64, .f32⟩
  | .local _ .vmem, ⟨10, _⟩ => ⟨S1x1x256x1024, .f32⟩
  | .local _ .vmem, ⟨11, _⟩ => ⟨S1x1x256x1024, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 4 → Nat :=
  let c0_7 : Index := 0#32
  let arg2 : BitVec 32 := BitVec.ofNat 32 (i 2).val
  let v9 : Index := Scalar.indexCast arg2
  let c0_8 : Index := 0#32
  let c0_9 : Index := 0#32
  ![0, v9.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x16x1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x256x1_S1x1x256x1_0_0_0_0 : ∀ a, (![0, 0, 0, 0] : Fin 4 → Nat) a + S1x1x256x1.size a ≤ S1x1x256x1.size a
  h_S1x1x256x1 : 0 < S1x1x256x1.numel
  shapeCasts_S1x1x256x1_S256x1 : S1x1x256x1.ShapeCasts S256x1
  broadcasts_S256x1_S256x64 : S256x1.Broadcasts S256x64
  bitsLt_bf16_f32 : FTy.bits .bf16 < FTy.bits .f32
  h_S1x1x1024x64 : 0 < S1x1x1024x64.numel
  shapeCasts_S1x1x1024x64_S1024x64 : S1x1x1024x64.ShapeCasts S1024x64
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S256x1024_S1x1x256x1024 : S256x1024.ShapeCasts S1x1x256x1024
  shapeCasts_S256x64_S1x1x256x64 : S256x64.ShapeCasts S1x1x256x64
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  k0_off1_inb : ∀ i : grid0.Coords, ∀ a, (k0_off1 i) a + S1x1x1024x64.size a ≤ S1x16x1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x16x1024x64.size a
  hwx0_0 : ∀ i : grid0.Coords, EltTy.bits .f32 = 32 ∨ (Rect.block (s := S4x16x1024x64) S1x1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16x1024x64.size a ≤ S4x16x1024x64.size a
  hwx0_1 : ∀ i : grid0.Coords, EltTy.bits .f32 = 32 ∨ (Rect.block (s := S4x16x1024x64) S1x16x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x1024x64.size a ≤ S4x16x1024x64.size a
  hwx0_2 : ∀ i : grid0.Coords, EltTy.bits .f32 = 32 ∨ (Rect.block (s := S4x16x1024x64) S1x16x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x1.size a ≤ S4x16x1024x1.size a
  hwx0_3 : ∀ i : grid0.Coords, EltTy.bits .f32 = 32 ∨ (Rect.block (s := S4x16x1024x1) S1x1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x1024.size a ≤ S4x1x1024x1024.size a
  hwx0_4 : ∀ i : grid0.Coords, EltTy.bits .i32 = 32 ∨ (Rect.block (s := S4x1x1024x1024) S1x1x256x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x64.size a ≤ S4x16x1024x64.size a
  hwx0_5 : ∀ i : grid0.Coords, EltTy.bits .f32 = 32 ∨ (Rect.block (s := S4x16x1024x64) S1x1x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256x1024.size a ≤ S4x16x1024x1024.size a
  hwx0_6 : ∀ i : grid0.Coords, EltTy.bits .f32 = 32 ∨ (Rect.block (s := S4x16x1024x1024) S1x1x256x1024.size (cc0_transform_6 i) (hinb0_6 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S4x16x1024x1 : Shape := ⟨4, ![4, 16, 1024, 1]⟩
abbrev S4x1x1024x1024 : Shape := ⟨4, ![4, 1, 1024, 1024]⟩
abbrev S_ : Shape := ⟨0, ![]⟩
abbrev S4x16x1024x1024 : Shape := ⟨4, ![4, 16, 1024, 1024]⟩
abbrev S4x16x1024 : Shape := ⟨3, ![4, 16, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x1, .f32⟩
  | .hbm, ⟨4, _⟩ => ⟨S4x1x1024x1024, .i32⟩
  | .hbm, ⟨5, _⟩ => ⟨S_, .f32⟩
  | .hbm, ⟨6, _⟩ => ⟨S4x16x1024x1, .f32⟩
  | .hbm, ⟨7, _⟩ => ⟨S4x16x1024x1, .f32⟩
  | .hbm, ⟨8, _⟩ => ⟨S4x16x1024x64, .f32⟩
  | .hbm, ⟨9, _⟩ => ⟨S4x16x1024x64, .f32⟩
  | .hbm, ⟨10, _⟩ => ⟨S4x16x1024x1024, .f32⟩
  | .hbm, ⟨11, _⟩ => ⟨S_, .i32⟩
  | .hbm, ⟨12, _⟩ => ⟨S4x1x1024x1024, .i32⟩
  | .hbm, ⟨13, _⟩ => ⟨S4x1x1024x1024, .i1⟩
  | .hbm, ⟨14, _⟩ => ⟨S_, .f32⟩
  | .hbm, ⟨15, _⟩ => ⟨S_, .f32⟩
  | .hbm, ⟨16, _⟩ => ⟨S4x16x1024x1024, .i1⟩
  | .hbm, ⟨17, _⟩ => ⟨S4x16x1024x1024, .f32⟩
  | .hbm, ⟨18, _⟩ => ⟨S4x16x1024x1024, .f32⟩
  | .hbm, ⟨19, _⟩ => ⟨S_, .f32⟩
  | .hbm, ⟨20, _⟩ => ⟨S4x16x1024, .f32⟩
  | .hbm, ⟨21, _⟩ => ⟨S_, .f32⟩
  | .hbm, ⟨22, _⟩ => ⟨S4x16x1024, .f32⟩
  | .hbm, ⟨23, _⟩ => ⟨S4x16x1024, .f32⟩
  | .hbm, ⟨24, _⟩ => ⟨S4x16x1024x1, .f32⟩
  | .hbm, ⟨25, _⟩ => ⟨S4x16x1024x1024, .f32⟩
  | .hbm, ⟨26, _⟩ => ⟨S4x16x1024x1024, .f32⟩
  | .hbm, ⟨27, _⟩ => ⟨S4x16x1024x1024, .f32⟩
  | .hbm, ⟨28, _⟩ => ⟨S_, .f32⟩
  | .hbm, ⟨29, _⟩ => ⟨S4x16x1024, .f32⟩
  | .hbm, ⟨30, _⟩ => ⟨S4x16x1024x1, .f32⟩
  | .hbm, ⟨31, _⟩ => ⟨S4x16x1024x1024, .f32⟩
  | .hbm, ⟨32, _⟩ => ⟨S4x16x1024x1024, .f32⟩
  | .hbm, ⟨33, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S_S4x16x1024x1 : S_.BroadcastsInDim S4x16x1024x1 (![] : Fin 0 → Fin S4x16x1024x1.rank)
  bcast_S4x16x1024x1_S4x16x1024x64_0_1_2_3 : S4x16x1024x1.BroadcastsInDim S4x16x1024x64 (![0, 1, 2, 3] : Fin 4 → Fin S4x16x1024x64.rank)
  bcast_S_S4x1x1024x1024 : S_.BroadcastsInDim S4x1x1024x1024 (![] : Fin 0 → Fin S4x1x1024x1024.rank)
  bcast_S4x1x1024x1024_S4x16x1024x1024_0_1_2_3 : S4x1x1024x1024.BroadcastsInDim S4x16x1024x1024 (![0, 1, 2, 3] : Fin 4 → Fin S4x16x1024x1024.rank)
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.AttnSpec.lean ====
/-
  Masked scaled dot-product attention, entry by entry over the extended reals.

  The arguments are three arrays `Q`, `K`, `W` of shape [4, 16, 1024, 64] (batch, head, position, feature), a column
  `Fc` of shape [4, 16, 1024, 1] that scales each query row, and a mask of 32-bit words of shape [4, 1, 1024, 1024]
  shared by the sixteen heads. For a batch `b`, a head `h` and a query position `s`:

    score t  = the fill value where the mask word at (b, 0, s, t) is zero, and otherwise
               the inner product over the 64 features of  Q (b,h,s,·) · (Fc (b,h,s,0) · 1/8)  with  K (b,h,t,·);
    rowMax   = the largest score of the row (the fold of `max` from `⊥` over the 1024 key positions);
    weight t = exp (score t − rowMax);
    attn t   = weight t divided by the sum of the row's weights;
    out d    = the sum over the key positions t of  attn t · W (b,h,t,d).

  The two results are `attn` as a [4, 16, 1024, 1024] array and `out` as a [4, 16, 1024, 64] array. Nothing here
  needs the inputs to be finite: every operation is the extended reals' own, applied in one fixed order.

  One program divides the scaling column by eight where the other multiplies it by one eighth; on the extended reals
  the two agree at every value, infinite ones included (`div_eight`).
-/
import Idealize.ShloMosaic.PureOps.Ideal
import Idealize.ShloMosaic.PureOps.Ideal.Laws
import Idealize.ShloMosaic.Lib.ValueIdx

noncomputable section

open scoped BigOperators

namespace Cert.AttnSpec

open Idealize.ShloMosaic Idealize.ShloMosaic.ValueIdx

/-- The shapes of the query / key / value arrays, of the scaling column, of the mask and of the attention matrix. -/
abbrev SQ : Shape := ⟨4, ![4, 16, 1024, 64]⟩
abbrev SF : Shape := ⟨4, ![4, 16, 1024, 1]⟩
abbrev SM : Shape := ⟨4, ![4, 1, 1024, 1024]⟩
abbrev SA : Shape := ⟨4, ![4, 16, 1024, 1024]⟩

/-- The value written where the mask word is zero: the binary32 number nearest to -10³⁰, a finite real. -/
abbrev fill : EReal := Ideal.ofBits .f32 0xF149F2CA#32

/-- One eighth, as its binary32 word denotes it. -/
abbrev eighth : EReal := Ideal.ofBits .f32 0x3E000000#32

variable (Q K W : SQ.Idx → EReal) (Fc : SF.Idx → EReal) (M : SM.Idx → BitVec 32)

/-- The masked score of query position `s` against key position `t`. -/
def score (b : Fin 4) (h : Fin 16) (s t : Fin 1024) : EReal :=
  Scalar.select (IntOp.cmpi .eq (M (ix4 b (0 : Fin 1) s t)) 0#32) fill
    (∑ d : Fin 64, Q (ix4 b h s d) * (Fc (ix4 b h s (0 : Fin 1)) * eighth) * K (ix4 b h t d))

/-- The largest score of a row. -/
def rowMax (b : Fin 4) (h : Fin 16) (s : Fin 1024) : EReal :=
  (Finset.univ : Finset (Fin 1024)).fold max ⊥ (fun t => score Q K Fc M b h s t)

/-- The unnormalised weight of key position `t`. -/
def weight (b : Fin 4) (h : Fin 16) (s t : Fin 1024) : EReal :=
  Ideal.exp (score Q K Fc M b h s t - rowMax Q K Fc M b h s)

/-- The attention weight: the row's weights divided by their sum. -/
def attn (b : Fin 4) (h : Fin 16) (s t : Fin 1024) : EReal :=
  Ideal.div (weight Q K Fc M b h s t) (∑ k : Fin 1024, weight Q K Fc M b h s k)

/-- The attention-weighted sum of the value rows. -/
def out (b : Fin 4) (h : Fin 16) (s : Fin 1024) (d : Fin 64) : EReal :=
  ∑ t : Fin 1024, attn Q K Fc M b h s t * W (ix4 b h t d)

/-- The attention matrix as an array. -/
def attnArr : SA.Idx → EReal := fun i => attn Q K Fc M (i 0) (i 1) (i 2) (i 3)

/-- The output as an array. -/
def outArr : SQ.Idx → EReal := fun i => out Q K W Fc M (i 0) (i 1) (i 2) (i 3)

theorem attnArr_apply (b : Fin 4) (h : Fin 16) (s t : Fin 1024) :
    attnArr Q K Fc M (ix4 b h s t) = attn Q K Fc M b h s t := rfl

theorem outArr_apply (b : Fin 4) (h : Fin 16) (s : Fin 1024) (d : Fin 64) :
    outArr Q K W Fc M (ix4 b h s d) = out Q K W Fc M b h s d := rfl

/-! ## Dividing by eight is multiplying by one eighth -/

/-- The word `0x41000000` denotes the real number 8. -/
theorem ofBits_eight : Ideal.ofBits .f32 0x41000000#32 = ((8 : ℝ) : EReal) := by
  simp [Ideal.ofBits, Ideal.ieee, -EReal.coe_mul]; norm_num

/-- The word `0x3E000000` denotes the real number 1/8. -/
theorem ofBits_eighth : Ideal.ofBits .f32 0x3E000000#32 = ((1 / 8 : ℝ) : EReal) := by
  simp [Ideal.ofBits, Ideal.ieee, -EReal.coe_mul]; norm_num

/-- On every extended real the quotient by eight is the product with one eighth. -/
theorem div_eight (x : EReal) : Ideal.div x (Ideal.ofBits .f32 0x41000000#32) = x * eighth := by
  rw [ofBits_eight, Ideal.div_coe (by norm_num : (8 : ℝ) ≠ 0)]
  exact congrArg (x * ·) ofBits_eighth.symm

end Cert.AttnSpec

end
-- ==== Proof.BodyPieces.lean ====
/-
  What one grid point's body leaves in its two output blocks, as values of the blocks it was handed.

  At a grid point the body is handed the query block `x0` [1,1,256,64], the whole key and value arrays of the
  point's batch `x1`, `x2` [1,16,1024,64], the scaling column's block `x3` [1,1,256,1] and the mask's block `x4`
  [1,1,256,1024]. It cuts the point's head out of the keys and of the values (a [1,1,1024,64] box at row
  `h` of the second axis, `h` the third grid coordinate), computes the attention block from the query block, the
  scaling column, the head's keys and the mask, stores it whole, and stores whole its product with the head's values.
  Each output block is written by exactly one store that covers it, so it ends holding that store's value.
-/
import proofs.«136639_j23476291240049_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyPieces

open Cert.KernelIdeal Cert.KernelIdeal.Gen

variable {F : FTy → Type} [FloatOps F]

/-- The four zero offsets, as a constant function. -/
theorem hz4 : (![0, 0, 0, 0] : Fin 4 → Nat) = fun _ => 0 := funext fun a => by fin_cases a <;> rfl

/-- The head of grid point `i` cut out of a batch's [1,16,1024,64] array: the [1,1,1024,64] box whose second
    coordinate is the point's third grid coordinate. -/
def headOf (i : grid0.Coords) (x : Vec F S1x16x1024x64 .f32) : Vec F S1x1x1024x64 .f32 :=
  View.ld x (Rect.unit (s := S1x16x1024x64) (k0_off1 i) S1x1x1024x64.size (k0_off1_inb i))

/-- The attention output's block after the body: the attention block of the query block, the scaling column, the
    head's keys and the mask, viewed with two leading unit axes. -/
theorem out6_eq (c : Dev nD) (i : grid0.Coords) (arg3 : Memref sig .tc .vmem S1x1x256x64 .f32) (harg3 : arg3.IsWhole) (arg4 : Memref sig .tc .vmem S1x16x1024x64 .f32) (harg4 : arg4.IsWhole) (arg5 : Memref sig .tc .vmem S1x16x1024x64 .f32) (harg5 : arg5.IsWhole) (arg6 : Memref sig .tc .vmem S1x1x256x1 .f32) (harg6 : arg6.IsWhole) (arg7 : Memref sig .tc .vmem S1x1x256x1024 .i32) (harg7 : arg7.IsWhole) (arg8 : Memref sig .tc .vmem S1x1x256x64 .f32) (harg8 : arg8.IsWhole) (arg9 : Memref sig .tc .vmem S1x1x256x1024 .f32) (harg9 : arg9.IsWhole) (x0 : Vec F S1x1x256x64 .f32) (x1 : Vec F S1x16x1024x64 .f32) (x2 : Vec F S1x16x1024x64 .f32) (x3 : Vec F S1x1x256x1 .f32) (x4 : Vec F S1x1x256x1024 .i32) :
    out0_A_6 c i arg3 harg3 arg4 harg4 arg5 harg5 arg6 harg6 arg7 harg7 arg8 harg8 arg9 harg9 x0 x1 x2 x3 x4 = k0_pay1 (k0_pay4 x0 x3 (headOf i x1) x4) := by
  unfold out0_A_6
  rw [View.read_writes_eq_canon _ _ _ (cover0_A_6 c i arg3 harg3 arg4 harg4 arg5 harg5 arg6 harg6 arg7 harg7 arg8 harg8 arg9 harg9 x0 x1 x2 x3 x4)]
  unfold kernelRun0_A
  dsimp only
  sl_unfold_run_names
  rw [View.canon_unit_zero hz4]
  simp only [View.readAt_eq_ld, harg3.read_unread, harg4.read_unread, harg6.read_unread, harg7.read_unread,
    View.ld_unit_zero (S := S1x1x256x64) hz4, View.ld_unit_zero (S := S1x1x256x1) hz4,
    View.ld_unit_zero (S := S1x1x256x1024) hz4]
  rfl

/-- The output's block after the body: the product of the attention block with the head's values, viewed with two
    leading unit axes. -/
theorem out5_eq (c : Dev nD) (i : grid0.Coords) (arg3 : Memref sig .tc .vmem S1x1x256x64 .f32) (harg3 : arg3.IsWhole) (arg4 : Memref sig .tc .vmem S1x16x1024x64 .f32) (harg4 : arg4.IsWhole) (arg5 : Memref sig .tc .vmem S1x16x1024x64 .f32) (harg5 : arg5.IsWhole) (arg6 : Memref sig .tc .vmem S1x1x256x1 .f32) (harg6 : arg6.IsWhole) (arg7 : Memref sig .tc .vmem S1x1x256x1024 .i32) (harg7 : arg7.IsWhole) (arg8 : Memref sig .tc .vmem S1x1x256x64 .f32) (harg8 : arg8.IsWhole) (arg9 : Memref sig .tc .vmem S1x1x256x1024 .f32) (harg9 : arg9.IsWhole) (x0 : Vec F S1x1x256x64 .f32) (x1 : Vec F S1x16x1024x64 .f32) (x2 : Vec F S1x16x1024x64 .f32) (x3 : Vec F S1x1x256x1 .f32) (x4 : Vec F S1x1x256x1024 .i32) :
    out0_A_5 c i arg3 harg3 arg4 harg4 arg5 harg5 arg6 harg6 arg7 harg7 arg8 harg8 arg9 harg9 x0 x1 x2 x3 x4 = k0_pay2 (k0_pay3 (headOf i x2)) (k0_pay4 x0 x3 (headOf i x1) x4) := by
  unfold out0_A_5
  rw [View.read_writes_eq_canon _ _ _ (cover0_A_5 c i arg3 harg3 arg4 harg4 arg5 harg5 arg6 harg6 arg7 harg7 arg8 harg8 arg9 harg9 x0 x1 x2 x3 x4)]
  unfold kernelRun0_A
  dsimp only
  sl_unfold_run_names
  rw [View.canon_unit_zero hz4]
  simp only [View.readAt_eq_ld, harg3.read_unread, harg4.read_unread, harg5.read_unread, harg6.read_unread, harg7.read_unread,
    View.ld_unit_zero (S := S1x1x256x64) hz4, View.ld_unit_zero (S := S1x1x256x1) hz4,
    View.ld_unit_zero (S := S1x1x256x1024) hz4]
  rfl

end Cert.KernelIdeal.BodyPieces

end
-- ==== Proof.Blocks.lean ====
/-
  Where each grid point's blocks sit in the arrays.

  The grid has 4 × 4 × 16 points, run in row-major order, the last coordinate fastest: point `t` is batch
  `t / 64 % 4`, query tile `t / 16 % 4`, head `t % 16`. At that point
    the query block and the two output blocks are at block index (batch, head, tile, 0) — the 256 query rows
      `256 · tile + p` of that batch and head;
    the scaling column's block is at the same index;
    the key and value windows hold the whole batch (all sixteen heads), at block index (batch, 0, 0, 0), and the body
      cuts the point's head out of them;
    the mask's block is at (batch, 0, tile, 0): the mask is shared by the heads.
  So an element of a block is an element of its array at coordinates that are read off here once.
-/
import proofs.«136639_j23476291240049_2_alg».proof.Proof.BodyPieces
import Idealize.ShloMosaic.Lib.ValueIdx

noncomputable section

open Idealize.ShloMosaic Idealize.ShloMosaic.TcCoe Idealize.SL.Sem

namespace Cert.KernelIdeal.Blocks

open Cert.KernelIdeal Cert.KernelIdeal.Gen Cert.KernelIdeal.BodyPieces Idealize.ShloMosaic.ValueIdx

variable {F : FTy → Type} [FloatOps F]
variable (m : (ℓ : Loc nD τ sig) → Buf (Elt F) ℓ)

/-- The batch, the query tile and the head of grid point `t`. -/
def batchOf (t : Fin cfg0.N) : Fin 4 := ⟨t.val / 64 % 4, Nat.mod_lt _ (by decide)⟩
def tileOf (t : Fin cfg0.N) : Fin 4 := ⟨t.val / 16 % 4, Nat.mod_lt _ (by decide)⟩
def headIx (t : Fin cfg0.N) : Fin 16 := ⟨t.val % 16, Nat.mod_lt _ (by decide)⟩

/-- Row `p` of query tile `q` among the 1024 positions. -/
def row (q : Fin 4) (p : Fin 256) : Fin 1024 := ⟨q.val * 256 + p.val, by have := q.isLt; have := p.isLt; omega⟩

/-- The printed index maps at every point, axis by axis, and the row at which the body cuts the head out. -/
theorem idx_facts : ∀ t : Fin cfg0.N,
    (win0_0.index t (0 : Fin 4) = t.val / 64 % 4 ∧ win0_0.index t (1 : Fin 4) = t.val % 16
      ∧ win0_0.index t (2 : Fin 4) = t.val / 16 % 4 ∧ win0_0.index t (3 : Fin 4) = 0)
    ∧ (win0_1.index t (0 : Fin 4) = t.val / 64 % 4 ∧ win0_1.index t (1 : Fin 4) = 0
      ∧ win0_1.index t (2 : Fin 4) = 0 ∧ win0_1.index t (3 : Fin 4) = 0)
    ∧ (win0_2.index t (0 : Fin 4) = t.val / 64 % 4 ∧ win0_2.index t (1 : Fin 4) = 0
      ∧ win0_2.index t (2 : Fin 4) = 0 ∧ win0_2.index t (3 : Fin 4) = 0)
    ∧ (win0_3.index t (0 : Fin 4) = t.val / 64 % 4 ∧ win0_3.index t (1 : Fin 4) = t.val % 16
      ∧ win0_3.index t (2 : Fin 4) = t.val / 16 % 4 ∧ win0_3.index t (3 : Fin 4) = 0)
    ∧ (win0_4.index t (0 : Fin 4) = t.val / 64 % 4 ∧ win0_4.index t (1 : Fin 4) = 0
      ∧ win0_4.index t (2 : Fin 4) = t.val / 16 % 4 ∧ win0_4.index t (3 : Fin 4) = 0)
    ∧ (win0_5.index t (0 : Fin 4) = t.val / 64 % 4 ∧ win0_5.index t (1 : Fin 4) = t.val % 16
      ∧ win0_5.index t (2 : Fin 4) = t.val / 16 % 4 ∧ win0_5.index t (3 : Fin 4) = 0)
    ∧ (win0_6.index t (0 : Fin 4) = t.val / 64 % 4 ∧ win0_6.index t (1 : Fin 4) = t.val % 16
      ∧ win0_6.index t (2 : Fin 4) = t.val / 16 % 4 ∧ win0_6.index t (3 : Fin 4) = 0)
    ∧ (k0_off1 (grid0.coords t) (0 : Fin 4) = 0 ∧ k0_off1 (grid0.coords t) (1 : Fin 4) = t.val % 16
      ∧ k0_off1 (grid0.coords t) (2 : Fin 4) = 0 ∧ k0_off1 (grid0.coords t) (3 : Fin 4) = 0) :=
  (by decide +kernel : ∀ t : Fin grid0.N, _)

/-- The query block at point `t`: rows `256 · tile + p` of the point's batch and head. -/
theorem iblk0_apply (c : Dev nD) (t : Fin cfg0.N) (p : Fin 256) (d : Fin 64) :
    (iblk m c 0 t : Vec F S1x1x256x64 .f32) (ix4 (0 : Fin 1) (0 : Fin 1) p d)
      = (m ((c : Thread nD τ).loc main_arg0) : S4x16x1024x64.Idx → Elt F .f32)
          (ix4 (batchOf t) (headIx t) (row (tileOf t) p) d) := by
  obtain ⟨⟨e0, e1, e2, e3⟩, -⟩ := idx_facts t
  unfold iblk
  rw [View.read_apply]
  show V m c main_arg0 _ = m (c.tc.loc main_arg0) _
  unfold V
  refine congrArg _ (funext fun a => Fin.ext ?_)
  match a with
  | ⟨0, _⟩ => show win0_0.index t (0 : Fin 4) * 1 + 1 * 0 = t.val / 64 % 4; rw [e0]; omega
  | ⟨1, _⟩ => show win0_0.index t (1 : Fin 4) * 1 + 1 * 0 = t.val % 16; rw [e1]; omega
  | ⟨2, _⟩ => show win0_0.index t (2 : Fin 4) * 256 + 1 * p.val = t.val / 16 % 4 * 256 + p.val; rw [e2]; omega
  | ⟨3, _⟩ => show win0_0.index t (3 : Fin 4) * 64 + 1 * d.val = d.val; rw [e3]; omega

/-- The key window at point `t`: the whole batch. -/
theorem iblk1_apply (c : Dev nD) (t : Fin cfg0.N) (h : Fin 16) (k : Fin 1024) (d : Fin 64) :
    (iblk m c 1 t : Vec F S1x16x1024x64 .f32) (ix4 (0 : Fin 1) h k d)
      = (m ((c : Thread nD τ).loc main_arg1) : S4x16x1024x64.Idx → Elt F .f32) (ix4 (batchOf t) h k d) := by
  obtain ⟨-, ⟨e0, e1, e2, e3⟩, -⟩ := idx_facts t
  unfold iblk
  rw [View.read_apply]
  show V m c main_arg1 _ = m (c.tc.loc main_arg1) _
  unfold V
  refine congrArg _ (funext fun a => Fin.ext ?_)
  match a with
  | ⟨0, _⟩ => show win0_1.index t (0 : Fin 4) * 1 + 1 * 0 = t.val / 64 % 4; rw [e0]; omega
  | ⟨1, _⟩ => show win0_1.index t (1 : Fin 4) * 16 + 1 * h.val = h.val; rw [e1]; omega
  | ⟨2, _⟩ => show win0_1.index t (2 : Fin 4) * 1024 + 1 * k.val = k.val; rw [e2]; omega
  | ⟨3, _⟩ => show win0_1.index t (3 : Fin 4) * 64 + 1 * d.val = d.val; rw [e3]; omega

/-- The value window at point `t`: the whole batch. -/
theorem iblk2_apply (c : Dev nD) (t : Fin cfg0.N) (h : Fin 16) (k : Fin 1024) (d : Fin 64) :
    (iblk m c 2 t : Vec F S1x16x1024x64 .f32) (ix4 (0 : Fin 1) h k d)
      = (m ((c : Thread nD τ).loc main_arg2) : S4x16x1024x64.Idx → Elt F .f32) (ix4 (batchOf t) h k d) := by
  obtain ⟨-, -, ⟨e0, e1, e2, e3⟩, -⟩ := idx_facts t
  unfold iblk
  rw [View.read_apply]
  show V m c main_arg2 _ = m (c.tc.loc main_arg2) _
  unfold V
  refine congrArg _ (funext fun a => Fin.ext ?_)
  match a with
  | ⟨0, _⟩ => show win0_2.index t (0 : Fin 4) * 1 + 1 * 0 = t.val / 64 % 4; rw [e0]; omega
  | ⟨1, _⟩ => show win0_2.index t (1 : Fin 4) * 16 + 1 * h.val = h.val; rw [e1]; omega
  | ⟨2, _⟩ => show win0_2.index t (2 : Fin 4) * 1024 + 1 * k.val = k.val; rw [e2]; omega
  | ⟨3, _⟩ => show win0_2.index t (3 : Fin 4) * 64 + 1 * d.val = d.val; rw [e3]; omega

/-- The scaling column's block at point `t`. -/
theorem iblk3_apply (c : Dev nD) (t : Fin cfg0.N) (p : Fin 256) :
    (iblk m c 3 t : Vec F S1x1x256x1 .f32) (ix4 (0 : Fin 1) (0 : Fin 1) p (0 : Fin 1))
      = (m ((c : Thread nD τ).loc main_arg3) : S4x16x1024x1.Idx → Elt F .f32)
          (ix4 (batchOf t) (headIx t) (row (tileOf t) p) (0 : Fin 1)) := by
  obtain ⟨-, -, -, ⟨e0, e1, e2, e3⟩, -⟩ := idx_facts t
  unfold iblk
  rw [View.read_apply]
  show V m c main_arg3 _ = m (c.tc.loc main_arg3) _
  unfold V
  refine congrArg _ (funext fun a => Fin.ext ?_)
  match a with
  | ⟨0, _⟩ => show win0_3.index t (0 : Fin 4) * 1 + 1 * 0 = t.val / 64 % 4; rw [e0]; omega
  | ⟨1, _⟩ => show win0_3.index t (1 : Fin 4) * 1 + 1 * 0 = t.val % 16; rw [e1]; omega
  | ⟨2, _⟩ => show win0_3.index t (2 : Fin 4) * 256 + 1 * p.val = t.val / 16 % 4 * 256 + p.val; rw [e2]; omega
  | ⟨3, _⟩ => show win0_3.index t (3 : Fin 4) * 1 + 1 * 0 = 0; rw [e3]

/-- The mask's block at point `t`: the tile's rows of the batch's one mask. -/
theorem iblk4_apply (c : Dev nD) (t : Fin cfg0.N) (p : Fin 256) (k : Fin 1024) :
    (iblk m c 4 t : Vec F S1x1x256x1024 .i32) (ix4 (0 : Fin 1) (0 : Fin 1) p k)
      = (m ((c : Thread nD τ).loc main_arg4) : S4x1x1024x1024.Idx → Elt F .i32)
          (ix4 (batchOf t) (0 : Fin 1) (row (tileOf t) p) k) := by
  obtain ⟨-, -, -, -, ⟨e0, e1, e2, e3⟩, -⟩ := idx_facts t
  unfold iblk
  rw [View.read_apply]
  show V m c main_arg4 _ = m (c.tc.loc main_arg4) _
  unfold V
  refine congrArg _ (funext fun a => Fin.ext ?_)
  match a with
  | ⟨0, _⟩ => show win0_4.index t (0 : Fin 4) * 1 + 1 * 0 = t.val / 64 % 4; rw [e0]; omega
  | ⟨1, _⟩ => show win0_4.index t (1 : Fin 4) * 1 + 1 * 0 = 0; rw [e1]
  | ⟨2, _⟩ => show win0_4.index t (2 : Fin 4) * 256 + 1 * p.val = t.val / 16 % 4 * 256 + p.val; rw [e2]; omega
  | ⟨3, _⟩ => show win0_4.index t (3 : Fin 4) * 1024 + 1 * k.val = k.val; rw [e3]; omega

/-- The head the body cuts out of a batch's array at point `t` is row `t % 16` of the second axis. -/
theorem headOf_apply (t : Fin cfg0.N) (x : Vec F S1x16x1024x64 .f32) (k : Fin 1024) (d : Fin 64) :
    headOf (grid0.coords t) x (ix4 (0 : Fin 1) (0 : Fin 1) k d) = x (ix4 (0 : Fin 1) (headIx t) k d) := by
  obtain ⟨-, -, -, -, -, -, -, ⟨e0, e1, e2, e3⟩⟩ := idx_facts t
  unfold headOf
  show x ((Rect.unit (s := S1x16x1024x64) (k0_off1 (grid0.coords t)) S1x1x1024x64.size (k0_off1_inb (grid0.coords t))).emb _) = _
  refine congrArg x (funext fun a => Fin.ext ?_)
  rw [Rect.emb_apply]
  match a with
  | ⟨0, _⟩ => show k0_off1 (grid0.coords t) (0 : Fin 4) + 1 * 0 = 0; rw [e0]
  | ⟨1, _⟩ => show k0_off1 (grid0.coords t) (1 : Fin 4) + 1 * 0 = t.val % 16; rw [e1]; omega
  | ⟨2, _⟩ => show k0_off1 (grid0.coords t) (2 : Fin 4) + 1 * k.val = k.val; rw [e2]; omega
  | ⟨3, _⟩ => show k0_off1 (grid0.coords t) (3 : Fin 4) + 1 * d.val = d.val; rw [e3]; omega

end Cert.KernelIdeal.Blocks

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.LibRowReduce.lean ====
/-
  Row reductions of a matrix, kept as a column and repeated along the lanes, read at an entry; and a select on an
  integer comparison with zero read as an `if`. These are the pieces of a masked softmax along rows: the maximum of a
  row (a fold of `max` from `-∞`, the value of the accumulator word `0xFF800000`), the sum of a row, each
  broadcast back to the matrix's shape, so that at the entry `(p, c)` one reads the reduction of row `p`. General in
  the extents, at the ideal values, where a float is an extended real.
-/
import proofs.«136639_j23476291240049_2_alg».proof.Proof.LibKernelIdx
import Idealize.ShloMosaic.Lib.Affine

noncomputable section

open scoped BigOperators

namespace Cert.LibRowReduce

open Idealize.ShloMosaic Idealize.ShloMosaic.ValueIdx

/-- The binary32 word of negative infinity denotes `⊥`. -/
theorem ofBits_neg_inf_f32 : Ideal.ofBits .f32 0xFF800000#32 = ⊥ := by
  simp [Ideal.ofBits, Ideal.ieee]

/-- The maximum of an `[a, b]` matrix along its second axis, read at row `p`, is the fold of `max` from `⊥` over that
    row's entries. The accumulator's side condition is typed as a program spells it, an equation between two words. -/
theorem laneMax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ v 0xFF800000#32 h hφ hacc (ix1 p)
      = (Finset.univ : Finset (Fin b)).fold max ⊥ (fun k => v (ix2 p k)) := by
  refine (Ideal.multiReduction_maximumf_single v 0xFF800000#32 h hφ hacc (ix1 p)).trans ?_
  have e : (v ∘ h.lift (ix1 p) : Fin b → EReal) = fun k => v (ix2 p k) :=
    funext fun k => congrArg v (funext fun ax => Fin.ext (match ax with | ⟨0, _⟩ => rfl | ⟨1, _⟩ => rfl))
  show (Finset.univ : Finset (Fin b)).fold max (Ideal.ofBits .f32 0xFF800000#32) (v ∘ h.lift (ix1 p)) = _
  rw [ofBits_neg_inf_f32]
  exact congrArg (fun f : Fin b → EReal => (Finset.univ : Finset (Fin b)).fold max ⊥ f) e

/-- The row maximum kept as a column and repeated along the lanes: at `(p, c)` the maximum of row `p`. -/
theorem keepdimsMax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩
        (shapeCast ⟨2, ![a, 1]⟩ (multiReduction (F := Ideal) .maximumf [1] ⟨1, ![a]⟩ v 0xFF800000#32 h hφ hacc) hc) hb (ix2 p c)
      = (Finset.univ : Finset (Fin b)).fold max ⊥ (fun k => v (ix2 p k)) :=
  (Cert.LibKernelIdx.broadcastTo_a1_ab_apply _ hb p c (0 : Fin 1)).trans
    ((Cert.LibKernelIdx.shapeCast_a_a1_apply _ hc p (0 : Fin 1)).trans (laneMax_apply v h hφ hacc p))

/-- The row sum kept as a column and repeated along the lanes: at `(p, c)` the sum of row `p`. -/
theorem keepdimsSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩
        (shapeCast ⟨2, ![a, 1]⟩ (multiReduction (F := Ideal) .add [1] ⟨1, ![a]⟩ v 0x00000000#32 h hφ hacc) hc) hb (ix2 p c)
      = ∑ k : Fin b, v (ix2 p k) :=
  (Cert.LibKernelIdx.broadcastTo_a1_ab_apply _ hb p c (0 : Fin 1)).trans
    ((Cert.LibKernelIdx.shapeCast_a_a1_apply _ hc p (0 : Fin 1)).trans (Cert.LibKernelIdx.laneSum_apply v h hφ hacc p))

/-- A select on "the word is not zero" is an `if` on that inequality. -/
theorem select_ne_zero {α : Type} {w : ℕ} (x : BitVec w) (y z : α) :
    Scalar.select (IntOp.cmpi .ne x 0#w) y z = if x ≠ 0#w then y else z :=
  if_congr IntOp.cmpi_ne rfl rfl

/-- A vector select whose condition, at the index, is "the word `x` is not zero" and whose two operands have the named
    values there: an `if` on the inequality between the two values. -/
theorem select_ne_zero_of_eq {α : Type} {s : Shape} {w : ℕ} (c : IVec s 1) (u t : s.Idx → α) (i : s.Idx)
    (x : BitVec w) (y z : α) (hc : c i = IntOp.cmpi .ne x 0#w) (hu : u i = y) (ht : t i = z) :
    select c u t i = if x ≠ 0#w then y else z := by
  show Scalar.select (c i) (u i) (t i) = _
  rw [hc, hu, ht]
  exact select_ne_zero x y z

/-! ## A masked softmax along the rows, at an entry -/

/-- The masked softmax of a matrix `s` along its rows, rounded to the narrower format (at the ideal values: left as it
    is), read at the entry `(p, j)`. With `σ k` the entry `(p, k)` of `s` and `M` the maximum of row `p` (the fold of
    `max` from `⊥` over `σ`), the entry is, where the mask word `cj` is set, the quotient of `exp (σ j - M)` by the sum
    over the row of `exp (σ k - M)`, and zero elsewhere. The row's values and the mask's word are named by the caller
    (`hs`, `hcj`), so that they can be whatever the caller has read them to be. -/
theorem maskedSoftmax_apply {a b : ℕ} (s : FVec Ideal ⟨2, ![a, b]⟩ .f32) (c : IVec ⟨2, ![a, b]⟩ 1)
    (h : (⟨2, ![a, b]⟩ : Shape).Reduces [1] ⟨1, ![a]⟩) (hφ : FKind.Formats .f32)
    (haccM : (0xFF800000#32 : BitVec 32) = 0xFF800000#32) (haccS : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (hlt : FTy.bits .bf16 < FTy.bits .f32) (p : Fin a) (j : Fin b)
    (σ : Fin b → EReal) (cj : BitVec 1) (hs : ∀ k, s (ix2 p k) = σ k) (hcj : c (ix2 p j) = cj) :
    (truncf .bf16
      (select c
        (divf
          (Idealize.ShloMosaic.exp (subf s (broadcastTo ⟨2, ![a, b]⟩
            (shapeCast ⟨2, ![a, 1]⟩ (multiReduction (F := Ideal) .maximumf [1] ⟨1, ![a]⟩ s 0xFF800000#32 h hφ haccM) hc) hb)))
          (broadcastTo ⟨2, ![a, b]⟩
            (shapeCast ⟨2, ![a, 1]⟩ (multiReduction (F := Ideal) .add [1] ⟨1, ![a]⟩
              (Idealize.ShloMosaic.exp (subf s (broadcastTo ⟨2, ![a, b]⟩
                (shapeCast ⟨2, ![a, 1]⟩ (multiReduction (F := Ideal) .maximumf [1] ⟨1, ![a]⟩ s 0xFF800000#32 h hφ haccM) hc) hb)))
              0x00000000#32 h hφ haccS) hc) hb))
        (broadcast ⟨2, ![a, b]⟩ (Scalar.ofBits (F := Ideal) .f32 0x00000000#32))) hlt : FVec Ideal ⟨2, ![a, b]⟩ .bf16) (ix2 p j)
      = Scalar.select cj
          (Ideal.div (Ideal.exp (σ j - (Finset.univ : Finset (Fin b)).fold max ⊥ σ))
            (∑ k : Fin b, Ideal.exp (σ k - (Finset.univ : Finset (Fin b)).fold max ⊥ σ)))
          0 := by
  have hM : ∀ k : Fin b, broadcastTo ⟨2, ![a, b]⟩
      (shapeCast ⟨2, ![a, 1]⟩ (multiReduction (F := Ideal) .maximumf [1] ⟨1, ![a]⟩ s 0xFF800000#32 h hφ haccM) hc) hb (ix2 p k)
      = (Finset.univ : Finset (Fin b)).fold max ⊥ σ := fun k =>
    (keepdimsMax_apply s h hφ haccM hc hb p k).trans
      (congrArg (fun f : Fin b → EReal => (Finset.univ : Finset (Fin b)).fold max ⊥ f) (funext hs))
  have hE : ∀ k : Fin b, Idealize.ShloMosaic.exp (subf s (broadcastTo ⟨2, ![a, b]⟩
      (shapeCast ⟨2, ![a, 1]⟩ (multiReduction (F := Ideal) .maximumf [1] ⟨1, ![a]⟩ s 0xFF800000#32 h hφ haccM) hc) hb)) (ix2 p k)
      = Ideal.exp (σ k - (Finset.univ : Finset (Fin b)).fold max ⊥ σ) := fun k =>
    congrArg Ideal.exp (congrArg₂ (· - ·) (hs k) (hM k))
  refine (congrArg₂ (fun (w : BitVec 1) (x : EReal) => Scalar.select w x (Ideal.ofBits .f32 0x00000000#32)) hcj
    (congrArg₂ Ideal.div (hE j) ((keepdimsSum_apply _ h hφ haccS hc hb p j).trans
      (Finset.sum_congr rfl fun k _ => hE k)))).trans ?_
  exact congrArg (Scalar.select cj _) Ideal.ofBits_zero_f32

end Cert.LibRowReduce

end
-- ==== Proof.LibMatmulRows.lean ====
/-
  A matrix product that contracts the SECOND axis of both operands, an `[m, k]` matrix with the transpose of an
  `[n, k]` one, accumulated into the zero splat and read at an entry at the ideal values: entry `(p, j)` is the
  inner product of row `p` of the left operand with row `j` of the right one. General in the extents.
-/
import Idealize.ShloMosaic.Lib.Pipeline.Value
import Idealize.ShloMosaic.Lib.ValueIdx
import Idealize.ShloMosaic.PureOps.Ideal.Laws

noncomputable section

open scoped BigOperators

namespace Cert.LibMatmulRows

open Idealize.ShloMosaic Idealize.ShloMosaic.ValueIdx

variable {m k n : ℕ}

/-- The dimension numbers: each operand's second axis contracted, its first kept, no batch axes. -/
abbrev rowsDims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

variable (w : DotDims.WF ⟨2, ![m, k]⟩ ⟨2, ![n, k]⟩ ⟨2, ![m, n]⟩ [1] [1] [0] [0] [] [])

/-- The left operand is read in the row the result's first coordinate names, -/
theorem lhs_row (i : (⟨2, ![m, n]⟩ : Shape).Idx) (q : (rowsDims w).contr.Idx) :
    ((rowsDims w).lhsIdx i q 0).val = (i 0).val := by
  unfold DotDims.lhsIdx
  rw [dif_neg (show ¬((0 : Fin 2) ∈ (rowsDims w).lhsBatch) from List.not_mem_nil),
    dif_pos (show (0 : Fin 2) ∈ (rowsDims w).lhsNonContracting from List.mem_singleton.mpr rfl)]
  rfl

/-- and the right operand in the row the result's second coordinate names. -/
theorem rhs_row (i : (⟨2, ![m, n]⟩ : Shape).Idx) (q : (rowsDims w).contr.Idx) :
    ((rowsDims w).rhsIdx i q 0).val = (i 1).val := by
  unfold DotDims.rhsIdx
  rw [dif_neg (show ¬((0 : Fin 2) ∈ (rowsDims w).rhsBatch) from List.not_mem_nil),
    dif_pos (show (0 : Fin 2) ∈ (rowsDims w).rhsNonContracting from List.mem_singleton.mpr rfl)]
  rfl

/-- The product of an `[m, k]` matrix with the transpose of an `[n, k]` matrix (each operand's second axis
    contracted, no batch axes) accumulated into the zero splat, read at `(p, j)`: the sum over the contracted
    coordinate `c` of `A (p, c) · B (j, c)`. -/
theorem matmul_rows_zero_apply {φ₁ φ₂ : FTy} (prec : Option ContractPrecision)
    (A : FVec Ideal ⟨2, ![m, k]⟩ φ₁) (B : FVec Ideal ⟨2, ![n, k]⟩ φ₂) (p : Fin m) (j : Fin n) :
    matmul (rowsDims w) prec A B (constant (F := Ideal) ⟨2, ![m, n]⟩ .f32 0x00000000#32) (ix2 p j)
      = ∑ c : Fin k, A (ix2 p c) * B (ix2 j c) := by
  show FloatOps.matmul _ prec A B _ (ix2 p j) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 p j) ((contrEquiv1 (rowsDims w) k rfl rfl).symm c) = ix2 p c :=
    funext fun ax => Fin.ext (by
      match ax with
      | ⟨0, _⟩ => exact lhs_row w _ _
      | ⟨1, _⟩ => exact ((rowsDims w).lhsIdx_val_of_single rfl _ _).trans c2)
  have r2 : (rowsDims w).rhsIdx (ix2 p j) ((contrEquiv1 (rowsDims w) k rfl rfl).symm c) = ix2 j c :=
    funext fun ax => Fin.ext (by
      match ax with
      | ⟨0, _⟩ => exact rhs_row w _ _
      | ⟨1, _⟩ => exact ((rowsDims w).rhsIdx_val_of_single rfl _ _).trans c2)
  rw [l2, r2]

end Cert.LibMatmulRows

end
-- ==== Proof.LibUnitAxes.lean ====
/-
  Two leading unit axes dropped or added by a shape cast, read at an index given by coordinates: a `[1, 1, a, b]`
  array viewed as the matrix `[a, b]`, and a matrix stored as a `[1, 1, a, b]` array. In both directions the entry
  at `(i, j)` of the matrix is the entry at `(0, 0, i, j)` of the four-axis array, because the two row-major
  positions are the same number `i * b + j`. General in the extents.
-/
import Idealize.ShloMosaic.Lib.Pipeline.Value
import Idealize.ShloMosaic.Lib.ValueIdx

namespace Cert.LibUnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- An `[a, b]` array cast to `[1, 1, a, b]` reads, at `(u, v, i, j)`, the operand at `(i, j)`, whatever the two
    unit coordinates `u` and `v`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv, Nat.zero_mul, Nat.zero_add])

end Cert.LibUnitAxes
-- ==== Proof.BodyValue.lean ====
/-
  The kernel body's arithmetic, read at an entry, at the ideal values (a float is an extended real, every operation
  exact, a change of format the identity).

  One grid point of the kernel handles a block of 256 query positions of one batch and one head. From the loaded
  blocks — the queries `v0` [1, 1, 256, 64], the scaling column `v2` [1, 1, 256, 1], the head's keys `v10` and values
  `v13` [1, 1, 1024, 64], and the mask words `v17` [1, 1, 256, 1024] — the body computes four pure values:

    * the attention block [256, 1024]: row `p` of the queries, each feature multiplied by the row's scaling entry
      times one eighth, is paired with every key row `k` by an inner product over the 64 features; where the mask
      word at `(p, k)` is zero the score is replaced by the fill value; the row's largest score is subtracted, the
      exponential taken, and the row divided by the sum of its exponentials;
    * the head's values viewed as a [1024, 64] matrix;
    * the attention block viewed as a [1, 1, 256, 1024] array, which is what is stored to the attention output;
    * the product of the attention block with the value matrix, viewed as a [1, 1, 256, 64] array, which is what is
      stored to the second output.

  Each is read here at one entry named by its coordinates. For the attention block the caller names the row's masked
  scores `σ` (hypothesis `hσ`), so that the entry is stated over `σ` alone: the quotient of `exp (σ j - M)` by the sum over
  the row of `exp (σ k - M)`, with `M` the fold of `max` from `⊥` over `σ`.
-/
import proofs.«136639_j23476291240049_2_alg».proof.Proof.Gen.KernelIdeal.Skeleton
import proofs.«136639_j23476291240049_2_alg».proof.Proof.AttnSpec
import proofs.«136639_j23476291240049_2_alg».proof.Proof.LibKernelIdx
import proofs.«136639_j23476291240049_2_alg».proof.Proof.LibRowReduce
import proofs.«136639_j23476291240049_2_alg».proof.Proof.LibMatmulRows
import proofs.«136639_j23476291240049_2_alg».proof.Proof.LibUnitAxes

noncomputable section

open scoped BigOperators

namespace Cert.KernelIdeal.BodyValue

open Cert.KernelIdeal Cert.KernelIdeal.Gen Idealize.ShloMosaic Idealize.ShloMosaic.ValueIdx

variable (v0 : Vec Ideal S1x1x256x64 .f32) (v2 : Vec Ideal S1x1x256x1 .f32) (v10 v13 : Vec Ideal S1x1x1024x64 .f32)
  (v17 : Vec Ideal S1x1x256x1024 .i32) (v14 : FVec Ideal S1024x64 .f32) (v31 : FVec Ideal S256x1024 .f32)
  (p : Fin 256) (j : Fin 1024) (d : Fin 64) (u w : Fin 1)

/-! ## The three views and the second product -/

/-- The head's values viewed as a matrix: the entry at (key position `j`, feature `d`) is the loaded block's entry at
    `(0, 0, j, d)`. -/
theorem pay3_apply : k0_pay3 (F := Ideal) v13 (ix2 j d) = v13 (ix4 (0 : Fin 1) (0 : Fin 1) j d) :=
  Cert.LibUnitAxes.shapeCast_11ab_ab_apply v13 shapeCasts_S1x1x1024x64_S1024x64 j d

/-- The attention block viewed as a four-axis array: the entry at `(u, w, p, j)` is the block's entry at `(p, j)`,
    whatever the two unit coordinates. -/
theorem pay1_apply : k0_pay1 (F := Ideal) v31 (ix4 u w p j) = v31 (ix2 p j) :=
  Cert.LibUnitAxes.shapeCast_ab_11ab_apply v31 shapeCasts_S256x1024_S1x1x256x1024 u w p j

/-- The product of the attention block with the value matrix, viewed as a four-axis array: the entry at
    `(u, w, p, d)` is the sum over the key positions `k` of the block's entry at `(p, k)` times the value matrix's entry
    at `(k, d)`. -/
theorem pay2_apply : k0_pay2 (F := Ideal) v14 v31 (ix4 u w p d) = ∑ k : Fin 1024, v31 (ix2 p k) * v14 (ix2 k d) :=
  (Cert.LibUnitAxes.shapeCast_ab_11ab_apply _ shapeCasts_S256x64_S1x1x256x64 u w p d).trans
    (Cert.LibKernelIdx.matmul_zero_apply dot_S256x1024_S1024x64_S256x64_1_0_0_1_n_n_wf none
      (truncf .bf16 v31 bitsLt_bf16_f32) (truncf .bf16 v14 bitsLt_bf16_f32) p d)

/-! ## The attention block

The body's value is built in four steps, named here one by one: the scaled query block, the scores, the masked scores,
and the softmax along the rows. Each is read at an entry; the body's value is their composition. -/

/-- The scaled query block [256, 64]: the queries viewed as a matrix, each row multiplied by the row's entry of the
    scaling column times one eighth (the column repeated along the 64 features). -/
def scaledQuery : FVec Ideal S256x64 .f32 :=
  mulf (shapeCast S256x64 v0 shapeCasts_S1x1x256x64_S256x64)
    (broadcastTo S256x64
      (mulf (shapeCast S256x1 v2 shapeCasts_S1x1x256x1_S256x1)
        (broadcast S256x1 (Scalar.ofBits (F := Ideal) .f32 0x3E000000#32)))
      broadcasts_S256x1_S256x64)

/-- At `(p, e)` the scaled query block is the query's feature `e` times (the row's scaling entry times one eighth). -/
theorem scaledQuery_apply (e : Fin 64) :
    scaledQuery v0 v2 (ix2 p e)
      = v0 (ix4 (0 : Fin 1) (0 : Fin 1) p e) * (v2 (ix4 (0 : Fin 1) (0 : Fin 1) p (0 : Fin 1)) * Cert.AttnSpec.eighth) :=
  congrArg₂ (fun x y : EReal => x * y)
    (Cert.LibUnitAxes.shapeCast_11ab_ab_apply v0 shapeCasts_S1x1x256x64_S256x64 p e)
    ((Cert.LibKernelIdx.broadcastTo_a1_ab_apply _ broadcasts_S256x1_S256x64 p e (0 : Fin 1)).trans
      (congrArg (fun x : EReal => x * Cert.AttnSpec.eighth)
        (Cert.LibUnitAxes.shapeCast_11ab_ab_apply v2 shapeCasts_S1x1x256x1_S256x1 p (0 : Fin 1))))

/-- The scores [256, 1024]: the scaled query block times the transpose of the key matrix, accumulated from zero. -/
def scores : FVec Ideal S256x1024 .f32 :=
  matmul dot_S256x64_S1024x64_S256x1024_1_1_0_0_n_n none
    (truncf .bf16 (scaledQuery v0 v2) bitsLt_bf16_f32)
    (truncf .bf16 (shapeCast S1024x64 v10 shapeCasts_S1x1x1024x64_S1024x64) bitsLt_bf16_f32)
    (constant S256x1024 .f32 0x00000000#32)

/-- At `(p, k)` the score is the inner product over the 64 features of the scaled query row `p` with the key row `k`. -/
theorem scores_apply (k : Fin 1024) :
    scores v0 v2 v10 (ix2 p k)
      = ∑ e : Fin 64, v0 (ix4 (0 : Fin 1) (0 : Fin 1) p e)
          * (v2 (ix4 (0 : Fin 1) (0 : Fin 1) p (0 : Fin 1)) * Cert.AttnSpec.eighth)
          * v10 (ix4 (0 : Fin 1) (0 : Fin 1) k e) :=
  (Cert.LibMatmulRows.matmul_rows_zero_apply dot_S256x64_S1024x64_S256x1024_1_1_0_0_n_n_wf none
      (truncf .bf16 (scaledQuery v0 v2) bitsLt_bf16_f32)
      (truncf .bf16 (shapeCast S1024x64 v10 shapeCasts_S1x1x1024x64_S1024x64) bitsLt_bf16_f32) p k).trans
    (Finset.sum_congr rfl fun e _ =>
      congrArg₂ (fun x y : EReal => x * y) (scaledQuery_apply v0 v2 p e)
        (Cert.LibUnitAxes.shapeCast_11ab_ab_apply v10 shapeCasts_S1x1x1024x64_S1024x64 k e))

/-- The masked scores [256, 1024]: the fill value where the mask word is zero, the score elsewhere. -/
def maskedScores : FVec Ideal S256x1024 .f32 :=
  select (cmpi .eq (shapeCast S256x1024 v17 shapeCasts_S1x1x256x1024_S256x1024) (broadcast S256x1024 0#32))
    (broadcast S256x1024 (Scalar.ofBits (F := Ideal) .f32 0xF149F2CA#32)) (scores v0 v2 v10)

/-- At `(p, k)` the masked score is the select, on "the mask word at `(0, 0, p, k)` is zero", between the fill value
    and the inner product. -/
theorem maskedScores_apply (k : Fin 1024) :
    maskedScores v0 v2 v10 v17 (ix2 p k)
      = Scalar.select (IntOp.cmpi .eq (v17 (ix4 (0 : Fin 1) (0 : Fin 1) p k)) 0#32) Cert.AttnSpec.fill
          (∑ e : Fin 64, v0 (ix4 (0 : Fin 1) (0 : Fin 1) p e)
            * (v2 (ix4 (0 : Fin 1) (0 : Fin 1) p (0 : Fin 1)) * Cert.AttnSpec.eighth)
            * v10 (ix4 (0 : Fin 1) (0 : Fin 1) k e)) :=
  congrArg₂ (fun (c : BitVec 32) (x : EReal) => Scalar.select (IntOp.cmpi .eq c 0#32) Cert.AttnSpec.fill x)
    (Cert.LibUnitAxes.shapeCast_11ab_ab_apply v17 shapeCasts_S1x1x256x1024_S256x1024 p k)
    (scores_apply v0 v2 v10 p k)

/-- The row maximum of a [256, 1024] block, kept as a column and repeated along the 1024 lanes. -/
def rowMaxBlock (s : FVec Ideal S256x1024 .f32) : FVec Ideal S256x1024 .f32 :=
  broadcastTo S256x1024
    (shapeCast S256x1 (multiReduction (F := Ideal) .maximumf [1] S256 s 0xFF800000#32 reduces_S256x1024_S256 (.inl rfl) rfl)
      shapeCasts_S256_S256x1)
    broadcasts_S256x1_S256x1024

/-- The exponentials of a block's entries less their row's maximum. -/
def weights (s : FVec Ideal S256x1024 .f32) : FVec Ideal S256x1024 .f32 :=
  Idealize.ShloMosaic.exp (subf s (rowMaxBlock s))

/-- The softmax of a block along its rows: the weights divided by their row's sum (kept as a column and repeated along
    the lanes). -/
def rowSoftmax (s : FVec Ideal S256x1024 .f32) : FVec Ideal S256x1024 .f32 :=
  divf (weights s)
    (broadcastTo S256x1024
      (shapeCast S256x1 (multiReduction (F := Ideal) .add [1] S256 (weights s) 0x00000000#32 reduces_S256x1024_S256 (.inl rfl) rfl)
        shapeCasts_S256_S256x1)
      broadcasts_S256x1_S256x1024)

/-- The softmax along the rows at `(p, j)`, over the row's entries `σ` as the caller names them: the quotient of
    `exp (σ j - M)` by the sum over the row of `exp (σ k - M)`, `M` the fold of `max` from `⊥` over `σ`. -/
theorem rowSoftmax_apply (s : FVec Ideal S256x1024 .f32) (σ : Fin 1024 → EReal) (hs : ∀ k : Fin 1024, s (ix2 p k) = σ k) :
    rowSoftmax s (ix2 p j)
      = Ideal.div (Ideal.exp (σ j - (Finset.univ : Finset (Fin 1024)).fold max ⊥ σ))
          (∑ k : Fin 1024, Ideal.exp (σ k - (Finset.univ : Finset (Fin 1024)).fold max ⊥ σ)) := by
  have hM : ∀ k : Fin 1024, rowMaxBlock s (ix2 p k) = (Finset.univ : Finset (Fin 1024)).fold max ⊥ σ := fun k =>
    (Cert.LibRowReduce.keepdimsMax_apply s reduces_S256x1024_S256 (.inl rfl) rfl shapeCasts_S256_S256x1
        broadcasts_S256x1_S256x1024 p k).trans
      (congrArg (fun f : Fin 1024 → EReal => (Finset.univ : Finset (Fin 1024)).fold max ⊥ f) (funext hs))
  have hE : ∀ k : Fin 1024, weights s (ix2 p k) = Ideal.exp (σ k - (Finset.univ : Finset (Fin 1024)).fold max ⊥ σ) :=
    fun k => congrArg Ideal.exp (congrArg₂ (fun x y : EReal => x - y) (hs k) (hM k))
  exact congrArg₂ Ideal.div (hE j)
    ((Cert.LibRowReduce.keepdimsSum_apply (weights s) reduces_S256x1024_S256 (.inl rfl) rfl shapeCasts_S256_S256x1
        broadcasts_S256x1_S256x1024 p j).trans
      (Finset.sum_congr rfl fun k _ => hE k))

/-- The body's attention block is the softmax along the rows of the masked scores: the two are the same term. -/
theorem pay4_eq : k0_pay4 (F := Ideal) v0 v2 v10 v17 = rowSoftmax (maskedScores v0 v2 v10 v17) := rfl

/-- The attention block at `(p, j)`, over the row's masked scores `σ` as the caller names them (`hσ`: at every key position
    `k`, the select on "the mask word at `(0, 0, p, k)` is zero" between the fill value and the inner product of the scaled
    query row with the key row is `σ k`). -/
theorem pay4_apply (σ : Fin 1024 → EReal)
    (hσ : ∀ k : Fin 1024,
      Scalar.select (IntOp.cmpi .eq (v17 (ix4 (0 : Fin 1) (0 : Fin 1) p k)) 0#32) Cert.AttnSpec.fill
        (∑ e : Fin 64, v0 (ix4 (0 : Fin 1) (0 : Fin 1) p e)
          * (v2 (ix4 (0 : Fin 1) (0 : Fin 1) p (0 : Fin 1)) * Cert.AttnSpec.eighth)
          * v10 (ix4 (0 : Fin 1) (0 : Fin 1) k e)) = σ k) :
    k0_pay4 (F := Ideal) v0 v2 v10 v17 (ix2 p j)
      = Ideal.div (Ideal.exp (σ j - (Finset.univ : Finset (Fin 1024)).fold max ⊥ σ))
          (∑ k : Fin 1024, Ideal.exp (σ k - (Finset.univ : Finset (Fin 1024)).fold max ⊥ σ)) :=
  (congrFun (pay4_eq v0 v2 v10 v17) (ix2 p j)).trans
    (rowSoftmax_apply p j (maskedScores v0 v2 v10 v17) σ fun k => (maskedScores_apply v0 v2 v10 v17 p k).trans (hσ k))

end Cert.KernelIdeal.BodyValue

end
-- ==== Proof.KernelValue.lean ====
/-
  The kernel's two result arrays after its run are the specification's arrays of the arguments.

  At a grid point (batch `b`, query tile `q`, head `h`) the body's attention block, read at row `p` and key
  position `j`, is the specification's attention weight of query position `256 · q + p` against `j` for that batch
  and head: the blocks the body was handed are the arrays read at those coordinates, and the body's arithmetic is the
  specification's, operation by operation. Its second block is the weighted sum of the head's value rows. Each of
  the 256 points writes its two blocks back to the block index (b, h, q, 0) of the two result arrays; these blocks tile
  the arrays, so after the run the arrays hold the specification's values everywhere.
-/
import proofs.«136639_j23476291240049_2_alg».proof.Proof.AttnSpec
import proofs.«136639_j23476291240049_2_alg».proof.Proof.Blocks
import proofs.«136639_j23476291240049_2_alg».proof.Proof.BodyValue
import proofs.«136639_j23476291240049_2_alg».proof.Proof.Gen.KernelIdeal.Value

noncomputable section

open scoped BigOperators
open Idealize.ShloMosaic Idealize.ShloMosaic.TcCoe Idealize.SL.Sem
open Idealize.ShloMosaic.Pipeline (Dat)

namespace Cert.KernelIdeal.AttnValue

open Cert.KernelIdeal Cert.KernelIdeal.Gen Cert.KernelIdeal.BodyPieces Cert.KernelIdeal.Blocks
open Idealize.ShloMosaic.ValueIdx Cert.AttnSpec

/-! ## One point's blocks, entry by entry -/

section Block

variable (Q K W : SQ.Idx → EReal) (Fc : SF.Idx → EReal) (M : SM.Idx → BitVec 32)
variable (b : Fin 4) (h : Fin 16) (q : Fin 4)
variable (x0 : Vec Ideal S1x1x256x64 .f32) (x3 : Vec Ideal S1x1x256x1 .f32) (kh vh : Vec Ideal S1x1x1024x64 .f32)
  (x4 : Vec Ideal S1x1x256x1024 .i32)

/-- When the blocks are the arrays read at batch `b`, head `h` and the rows of query tile `q`, the body's
    attention block at `(p, j)` is the specification's attention weight of position `256 · q + p` against `j`. -/
theorem attnBlock_apply
    (h0 : ∀ (p : Fin 256) (d : Fin 64), x0 (ix4 (0 : Fin 1) (0 : Fin 1) p d) = Q (ix4 b h (row q p) d))
    (h3 : ∀ p : Fin 256, x3 (ix4 (0 : Fin 1) (0 : Fin 1) p (0 : Fin 1)) = Fc (ix4 b h (row q p) (0 : Fin 1)))
    (h1 : ∀ (k : Fin 1024) (d : Fin 64), kh (ix4 (0 : Fin 1) (0 : Fin 1) k d) = K (ix4 b h k d))
    (h4 : ∀ (p : Fin 256) (k : Fin 1024), x4 (ix4 (0 : Fin 1) (0 : Fin 1) p k) = M (ix4 b (0 : Fin 1) (row q p) k))
    (p : Fin 256) (j : Fin 1024) :
    k0_pay4 (F := Ideal) x0 x3 kh x4 (ix2 p j) = attn Q K Fc M b h (row q p) j :=
  Cert.KernelIdeal.BodyValue.pay4_apply (v0 := x0) (v2 := x3) (v10 := kh) (v17 := x4) (p := p) (j := j)
    (σ := fun k => score Q K Fc M b h (row q p) k) (hσ := fun k => by
      unfold score
      rw [h4 p k, h3 p]
      refine congrArg _ (Finset.sum_congr rfl fun e _ => ?_)
      rw [h0 p e, h1 k e])

/-- and its second block at `(p, d)` is the specification's output at position `256 · q + p` and feature `d`. -/
theorem outBlock_apply
    (h0 : ∀ (p : Fin 256) (d : Fin 64), x0 (ix4 (0 : Fin 1) (0 : Fin 1) p d) = Q (ix4 b h (row q p) d))
    (h3 : ∀ p : Fin 256, x3 (ix4 (0 : Fin 1) (0 : Fin 1) p (0 : Fin 1)) = Fc (ix4 b h (row q p) (0 : Fin 1)))
    (h1 : ∀ (k : Fin 1024) (d : Fin 64), kh (ix4 (0 : Fin 1) (0 : Fin 1) k d) = K (ix4 b h k d))
    (h2 : ∀ (k : Fin 1024) (d : Fin 64), vh (ix4 (0 : Fin 1) (0 : Fin 1) k d) = W (ix4 b h k d))
    (h4 : ∀ (p : Fin 256) (k : Fin 1024), x4 (ix4 (0 : Fin 1) (0 : Fin 1) p k) = M (ix4 b (0 : Fin 1) (row q p) k))
    (u w : Fin 1) (p : Fin 256) (d : Fin 64) :
    k0_pay2 (F := Ideal) (k0_pay3 vh) (k0_pay4 x0 x3 kh x4) (ix4 u w p d) = out Q K W Fc M b h (row q p) d := by
  refine (Cert.KernelIdeal.BodyValue.pay2_apply (v14 := k0_pay3 vh) (v31 := k0_pay4 x0 x3 kh x4) (u := u) (w := w) (p := p) (d := d)).trans ?_
  unfold out
  refine Finset.sum_congr rfl fun k _ => ?_
  rw [attnBlock_apply Q K Fc M b h q x0 x3 kh x4 h0 h3 h1 h4 p k,
    Cert.KernelIdeal.BodyValue.pay3_apply (v13 := vh) (j := k) (d := d), h2 k d]

end Block

/-! ## The run -/

variable (m : (ℓ : Loc nD τ sig) → Buf (Elt Ideal) ℓ) (ρ : Dev nD → PrngReg)

/-- The specification's attention matrix of the arguments as launched. -/
def attnOf (c : Dev nD) : S4x16x1024x1024.Idx → EReal :=
  attnArr (m ((c : Thread nD τ).loc main_arg0)) (m ((c : Thread nD τ).loc main_arg1))
    (m ((c : Thread nD τ).loc main_arg3)) (m ((c : Thread nD τ).loc main_arg4))

/-- The specification's output of the arguments as launched. -/
def outOf (c : Dev nD) : S4x16x1024x64.Idx → EReal :=
  outArr (m ((c : Thread nD τ).loc main_arg0)) (m ((c : Thread nD τ).loc main_arg1))
    (m ((c : Thread nD τ).loc main_arg2)) (m ((c : Thread nD τ).loc main_arg3)) (m ((c : Thread nD τ).loc main_arg4))

/-- A [1,1,256,1024] block whose entry `(p, j)` is entry (batch, head, 256 · tile + p, j) of an array `G` is the block
    that point `t` writes to, read off `G`. -/
theorem cut6_eq_read (t : Fin cfg0.N) (X : Vec Ideal S1x1x256x1024 .f32) (G : S4x16x1024x1024.Idx → EReal)
    (hX : ∀ (p : Fin 256) (j : Fin 1024),
      X (ix4 (0 : Fin 1) (0 : Fin 1) p j) = G (ix4 (batchOf t) (headIx t) (row (tileOf t) p) j)) :
    (cfg0.win 6).cut (grid0.coords t) X = ((cfg0.win 6).blk t).view.read (Elt Ideal) G := by
  obtain ⟨-, -, -, -, -, -, ⟨e0, e1, e2, e3⟩, -⟩ := idx_facts t
  funext y
  rw [View.read_apply]
  have hy0 : (y 0).val < 1 := (y 0).isLt
  have hy1 : (y 1).val < 1 := (y 1).isLt
  have hy2 : (y 2).val < 256 := (y 2).isLt
  have hy3 : (y 3).val < 1024 := (y 3).isLt
  refine Eq.trans (congrArg X (?_ : win0_6.xinj (grid0.coords t) y
      = ix4 (0 : Fin 1) (0 : Fin 1) (⟨(y 2).val, hy2⟩ : Fin 256) (⟨(y 3).val, hy3⟩ : Fin 1024)))
    ((hX _ _).trans (congrArg G ?_))
  · funext a; apply Fin.ext
    match a with
    | ⟨0, _⟩ => show (y 0).val = 0; omega
    | ⟨1, _⟩ => show (y 1).val = 0; omega
    | ⟨2, _⟩ => rfl
    | ⟨3, _⟩ => rfl
  · funext a; apply Fin.ext
    match a with
    | ⟨0, _⟩ => show t.val / 64 % 4 = win0_6.index t (0 : Fin 4) * 1 + 1 * (y 0).val; rw [e0]; omega
    | ⟨1, _⟩ => show t.val % 16 = win0_6.index t (1 : Fin 4) * 1 + 1 * (y 1).val; rw [e1]; omega
    | ⟨2, _⟩ => show t.val / 16 % 4 * 256 + (y 2).val = win0_6.index t (2 : Fin 4) * 256 + 1 * (y 2).val; rw [e2]; omega
    | ⟨3, _⟩ => show (y 3).val = win0_6.index t (3 : Fin 4) * 1024 + 1 * (y 3).val; rw [e3]; omega

/-- The same for the [1,1,256,64] output block. -/
theorem cut5_eq_read (t : Fin cfg0.N) (X : Vec Ideal S1x1x256x64 .f32) (G : S4x16x1024x64.Idx → EReal)
    (hX : ∀ (p : Fin 256) (d : Fin 64),
      X (ix4 (0 : Fin 1) (0 : Fin 1) p d) = G (ix4 (batchOf t) (headIx t) (row (tileOf t) p) d)) :
    (cfg0.win 5).cut (grid0.coords t) X = ((cfg0.win 5).blk t).view.read (Elt Ideal) G := by
  obtain ⟨-, -, -, -, -, ⟨e0, e1, e2, e3⟩, -⟩ := idx_facts t
  funext y
  rw [View.read_apply]
  have hy0 : (y 0).val < 1 := (y 0).isLt
  have hy1 : (y 1).val < 1 := (y 1).isLt
  have hy2 : (y 2).val < 256 := (y 2).isLt
  have hy3 : (y 3).val < 64 := (y 3).isLt
  refine Eq.trans (congrArg X (?_ : win0_5.xinj (grid0.coords t) y
      = ix4 (0 : Fin 1) (0 : Fin 1) (⟨(y 2).val, hy2⟩ : Fin 256) (⟨(y 3).val, hy3⟩ : Fin 64)))
    ((hX _ _).trans (congrArg G ?_))
  · funext a; apply Fin.ext
    match a with
    | ⟨0, _⟩ => show (y 0).val = 0; omega
    | ⟨1, _⟩ => show (y 1).val = 0; omega
    | ⟨2, _⟩ => rfl
    | ⟨3, _⟩ => rfl
  · funext a; apply Fin.ext
    match a with
    | ⟨0, _⟩ => show t.val / 64 % 4 = win0_5.index t (0 : Fin 4) * 1 + 1 * (y 0).val; rw [e0]; omega
    | ⟨1, _⟩ => show t.val % 16 = win0_5.index t (1 : Fin 4) * 1 + 1 * (y 1).val; rw [e1]; omega
    | ⟨2, _⟩ => show t.val / 16 % 4 * 256 + (y 2).val = win0_5.index t (2 : Fin 4) * 256 + 1 * (y 2).val; rw [e2]; omega
    | ⟨3, _⟩ => show (y 3).val = win0_5.index t (3 : Fin 4) * 64 + 1 * (y 3).val; rw [e3]; omega

/-- What point `t` writes back to the attention array is its block of the specification's attention matrix. -/
theorem flushed6_eq (c : Dev nD) (t : Fin cfg0.N) :
    (dats m 0 c).flushed 6 t = ((cfg0.win 6).blk t).view.read (Elt Ideal) (attnOf m c) := by
  rw [Cert.KernelIdeal.Value.flushed6_A m c t,
    out6_eq c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t)
      (iblk m c 0 t) (iblk m c 1 t) (iblk m c 2 t) (iblk m c 3 t) (iblk m c 4 t)]
  refine cut6_eq_read t _ (attnOf m c) fun p j => ?_
  refine (Cert.KernelIdeal.BodyValue.pay1_apply (v31 := k0_pay4 (iblk m c 0 t) (iblk m c 3 t) (headOf (grid0.coords t) (iblk m c 1 t)) (iblk m c 4 t))
    (u := (0 : Fin 1)) (w := (0 : Fin 1)) (p := p) (j := j)).trans ?_
  exact attnBlock_apply _ _ _ _ (batchOf t) (headIx t) (tileOf t) _ _ _ _
    (fun p d => iblk0_apply m c t p d) (fun p => iblk3_apply m c t p)
    (fun k d => (headOf_apply t _ k d).trans (iblk1_apply m c t (headIx t) k d))
    (fun p k => iblk4_apply m c t p k) p j

/-- What point `t` writes back to the output array is its block of the specification's output. -/
theorem flushed5_eq (c : Dev nD) (t : Fin cfg0.N) :
    (dats m 0 c).flushed 5 t = ((cfg0.win 5).blk t).view.read (Elt Ideal) (outOf m c) := by
  rw [Cert.KernelIdeal.Value.flushed5_A m c t,
    out5_eq c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t)
      (iblk m c 0 t) (iblk m c 1 t) (iblk m c 2 t) (iblk m c 3 t) (iblk m c 4 t)]
  refine cut5_eq_read t _ (outOf m c) fun p d => ?_
  exact outBlock_apply _ _ _ _ _ (batchOf t) (headIx t) (tileOf t) _ _ _ _ _
    (fun p d => iblk0_apply m c t p d) (fun p => iblk3_apply m c t p)
    (fun k d => (headOf_apply t _ k d).trans (iblk1_apply m c t (headIx t) k d))
    (fun k d => (headOf_apply t _ k d).trans (iblk2_apply m c t (headIx t) k d))
    (fun p k => iblk4_apply m c t p k) (0 : Fin 1) (0 : Fin 1) p d

/-! ## The blocks tile the arrays -/

/-- An index of the attention array is in point `t`'s block iff each coordinate is in the block's range. -/
theorem mem_blk6 (t : Fin cfg0.N) (i : S4x16x1024x1024.Idx) :
    i ∈ ((cfg0.win 6).blk t).view.set ↔ ∀ a : Fin 4, win0_6.index t a * S1x1x256x1024.size a ≤ (i a).val
      ∧ (i a).val < win0_6.index t a * S1x1x256x1024.size a + S1x1x256x1024.size a := by
  show i ∈ ((View.whole main_v0_1).slice (win0_6.rect t)).set ↔ _
  rw [View.set_slice_whole, Rect.mem_set_unit]
  exact Iff.rfl

theorem mem_blk5 (t : Fin cfg0.N) (i : S4x16x1024x64.Idx) :
    i ∈ ((cfg0.win 5).blk t).view.set ↔ ∀ a : Fin 4, win0_5.index t a * S1x1x256x64.size a ≤ (i a).val
      ∧ (i a).val < win0_5.index t a * S1x1x256x64.size a + S1x1x256x64.size a := by
  show i ∈ ((View.whole main_v0_0).slice (win0_5.rect t)).set ↔ _
  rw [View.set_slice_whole, Rect.mem_set_unit]
  exact Iff.rfl

/-- The point of batch `b`, query tile `q` and head `h`. -/
def pointOf (b : Nat) (q : Nat) (h : Nat) (hb : b < 4) (hq : q < 4) (hh : h < 16) : Fin cfg0.N :=
  ⟨b * 64 + q * 16 + h, by rw [show cfg0.N = 256 from N_0]; omega⟩

/-- Every index of the attention array is in the block of the point of its batch, its head and its row's tile. -/
theorem cover6 (i : S4x16x1024x1024.Idx) :
    ∃ t : Fin cfg0.N, (cfg0.win 6).flush t = true ∧ i ∈ ((cfg0.win 6).blk t).view.set := by
  have h0 : (i 0).val < 4 := (i 0).isLt
  have h1 : (i 1).val < 16 := (i 1).isLt
  have h2 : (i 2).val < 1024 := (i 2).isLt
  have h3 : (i 3).val < 1024 := (i 3).isLt
  refine ⟨pointOf (i 0).val ((i 2).val / 256) (i 1).val h0 (by omega) h1, flush0_6 _, ?_⟩
  obtain ⟨-, -, -, -, -, -, ⟨e0, e1, e2, e3⟩, -⟩ := idx_facts (pointOf (i 0).val ((i 2).val / 256) (i 1).val h0 (by omega) h1)
  have hv : (pointOf (i 0).val ((i 2).val / 256) (i 1).val h0 (by omega) h1).val = (i 0).val * 64 + (i 2).val / 256 * 16 + (i 1).val := rfl
  rw [hv] at e0 e1 e2
  rw [mem_blk6]
  intro a
  match a with
  | ⟨0, _⟩ => show win0_6.index _ (0 : Fin 4) * 1 ≤ (i 0).val ∧ (i 0).val < win0_6.index _ (0 : Fin 4) * 1 + 1; rw [e0]; omega
  | ⟨1, _⟩ => show win0_6.index _ (1 : Fin 4) * 1 ≤ (i 1).val ∧ (i 1).val < win0_6.index _ (1 : Fin 4) * 1 + 1; rw [e1]; omega
  | ⟨2, _⟩ => show win0_6.index _ (2 : Fin 4) * 256 ≤ (i 2).val ∧ (i 2).val < win0_6.index _ (2 : Fin 4) * 256 + 256; rw [e2]; omega
  | ⟨3, _⟩ => show win0_6.index _ (3 : Fin 4) * 1024 ≤ (i 3).val ∧ (i 3).val < win0_6.index _ (3 : Fin 4) * 1024 + 1024; rw [e3]; omega

/-- Every index of the output array likewise. -/
theorem cover5 (i : S4x16x1024x64.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 1024 := (i 2).isLt
  have h3 : (i 3).val < 64 := (i 3).isLt
  refine ⟨pointOf (i 0).val ((i 2).val / 256) (i 1).val h0 (by omega) h1, flush0_5 _, ?_⟩
  obtain ⟨-, -, -, -, -, ⟨e0, e1, e2, e3⟩, -⟩ := idx_facts (pointOf (i 0).val ((i 2).val / 256) (i 1).val h0 (by omega) h1)
  have hv : (pointOf (i 0).val ((i 2).val / 256) (i 1).val h0 (by omega) h1).val = (i 0).val * 64 + (i 2).val / 256 * 16 + (i 1).val := rfl
  rw [hv] at e0 e1 e2
  rw [mem_blk5]
  intro a
  match a with
  | ⟨0, _⟩ => show win0_5.index _ (0 : Fin 4) * 1 ≤ (i 0).val ∧ (i 0).val < win0_5.index _ (0 : Fin 4) * 1 + 1; rw [e0]; omega
  | ⟨1, _⟩ => show win0_5.index _ (1 : Fin 4) * 1 ≤ (i 1).val ∧ (i 1).val < win0_5.index _ (1 : Fin 4) * 1 + 1; rw [e1]; omega
  | ⟨2, _⟩ => show win0_5.index _ (2 : Fin 4) * 256 ≤ (i 2).val ∧ (i 2).val < win0_5.index _ (2 : Fin 4) * 256 + 256; rw [e2]; omega
  | ⟨3, _⟩ => show win0_5.index _ (3 : Fin 4) * 64 ≤ (i 3).val ∧ (i 3).val < win0_5.index _ (3 : Fin 4) * 64 + 64; rw [e3]; omega

/-- The attention array after the run. -/
theorem final6 (c : Dev nD) : (dats m 0 c).arrAt 6 cfg0.N = attnOf m c :=
  (dats m 0 c).arrAt_eq_of_cover 6 (attnOf m c) (fun t _ => flushed6_eq m c t) cover6

/-- The output array after the run. -/
theorem final5 (c : Dev nD) : (dats m 0 c).arrAt 5 cfg0.N = outOf m c :=
  (dats m 0 c).arrAt_eq_of_cover 5 (outOf m c) (fun t _ => flushed5_eq m c t) cover5

/-- The kernel's run: every weakly fair execution ends with the two result arrays at the specification's values of
    the arguments, the arguments unchanged. -/
theorem run : θ_run defs (onTc (τ := τ) (main (F := Ideal))) ⟨m, fun _ => 0, ρ⟩ fun r => ∀ c : Dev nD,
      r.2.mem ((c : Thread nD τ).loc main_v0_0) = outOf m c
      ∧ r.2.mem ((c : Thread nD τ).loc main_v0_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.KernelIdeal.Value.run_blocks m ρ)

end Cert.KernelIdeal.AttnValue

end
-- ==== Proof.RefIsSpec.lean ====
/-
  The reference program computes the specification's masked scaled dot-product attention.

  The reference is a straight line of array operations on the five arguments: the scaling column is divided by eight
  and spread along the feature axis, the query is multiplied by it, a contraction over the 64 features against the key
  gives the raw scores, the mask's zero words replace a score by the fill value, each row's maximum is taken (a fold of
  the maximum from minus infinity along the key axis, then once more against minus infinity, which changes nothing),
  the scores less that maximum are exponentiated, each row is divided by its sum (the sum starts from zero), and a
  contraction over the 1024 key positions against the value array gives the output.

  Every stage is read at an index given by its coordinates (batch, head, query position, and a key position or a
  feature), and found to be the corresponding entry of the specification: the scaled query, the masked score, the
  row's maximum, the unnormalised weight, the attention weight. The two results, as arrays, are then the
  specification's two arrays.
-/
import proofs.«136639_j23476291240049_2_alg».proof.Proof.AttnSpec
import proofs.«136639_j23476291240049_2_alg».proof.Proof.Gen.ReferenceIdeal.Read

noncomputable section

open scoped BigOperators

namespace Cert.ReferenceIdeal.RefSpec

open Cert.ReferenceIdeal Cert.ReferenceIdeal.Gen Cert.ReferenceIdeal.Read Idealize.ShloMosaic Idealize.ShloMosaic.ValueIdx
open Cert.AttnSpec (fill eighth div_eight)

/-! ## Where each stage reads its operand, in coordinates -/

/-- Spreading the scaling column along the features reads it at feature 0. -/
theorem idx_v2_ix4 (b : Fin 4) (h : Fin 16) (s : Fin 1024) (d : Fin 64) :
    idx_main_v2 (ix4 b h s d) = ix4 b h s (0 : Fin 1) := by
  funext a; match a with | ⟨0, _⟩ => rfl | ⟨1, _⟩ => rfl | ⟨2, _⟩ => rfl | ⟨3, _⟩ => rfl

/-- The score's contraction reads the scaled query at (b, h, s, k). -/
theorem lidx_v4_ix4 (b : Fin 4) (h : Fin 16) (s t : Fin 1024) (k : Fin 64) :
    lidx_main_v4 (ix4 b h s t) k = ix4 b h s k := by
  funext a; match a with | ⟨0, _⟩ => rfl | ⟨1, _⟩ => rfl | ⟨2, _⟩ => rfl | ⟨3, _⟩ => rfl

/-- The score's contraction reads the key at (b, h, t, k). -/
theorem ridx_v4_ix4 (b : Fin 4) (h : Fin 16) (s t : Fin 1024) (k : Fin 64) :
    ridx_main_v4 (ix4 b h s t) k = ix4 b h t k := by
  funext a; match a with | ⟨0, _⟩ => rfl | ⟨1, _⟩ => rfl | ⟨2, _⟩ => rfl | ⟨3, _⟩ => rfl

/-- The mask is shared by the heads: it is read at head 0. -/
theorem idx_call0_v1_ix4 (b : Fin 4) (h : Fin 16) (s t : Fin 1024) :
    idx_main_call0_v1 (ix4 b h s t) = ix4 b (0 : Fin 1) s t := by
  funext a; match a with | ⟨0, _⟩ => rfl | ⟨1, _⟩ => rfl | ⟨2, _⟩ => rfl | ⟨3, _⟩ => rfl

/-- Spreading a column along the key positions reads it at position 0. -/
theorem idx_v12_ix4 (b : Fin 4) (h : Fin 16) (s t : Fin 1024) :
    idx_main_v12 (ix4 b h s t) = ix4 b h s (0 : Fin 1) := by
  funext a; match a with | ⟨0, _⟩ => rfl | ⟨1, _⟩ => rfl | ⟨2, _⟩ => rfl | ⟨3, _⟩ => rfl

/-- A column's entry is the row value it was made from. -/
theorem idx_v11_ix4 (b : Fin 4) (h : Fin 16) (s : Fin 1024) (z : Fin 1) :
    idx_main_v11 (ix4 b h s z) = ix3 b h s := by
  funext a; match a with | ⟨0, _⟩ => rfl | ⟨1, _⟩ => rfl | ⟨2, _⟩ => rfl

/-- The row sum runs over the key positions of the row. -/
theorem idx_v15_ix3 (b : Fin 4) (h : Fin 16) (s : Fin 1024) (k : Fin 1024) :
    idx_main_v15 (ix3 b h s) k = ix4 b h s k := by
  funext a; match a with | ⟨0, _⟩ => rfl | ⟨1, _⟩ => rfl | ⟨2, _⟩ => rfl | ⟨3, _⟩ => rfl

theorem idx_v16_ix4 (b : Fin 4) (h : Fin 16) (s : Fin 1024) (z : Fin 1) :
    idx_main_v16 (ix4 b h s z) = ix3 b h s := by
  funext a; match a with | ⟨0, _⟩ => rfl | ⟨1, _⟩ => rfl | ⟨2, _⟩ => rfl

theorem idx_v17_ix4 (b : Fin 4) (h : Fin 16) (s t : Fin 1024) :
    idx_main_v17 (ix4 b h s t) = ix4 b h s (0 : Fin 1) := by
  funext a; match a with | ⟨0, _⟩ => rfl | ⟨1, _⟩ => rfl | ⟨2, _⟩ => rfl | ⟨3, _⟩ => rfl

/-- The output's contraction reads the attention matrix at (b, h, s, k). -/
theorem lidx_v19_ix4 (b : Fin 4) (h : Fin 16) (s : Fin 1024) (d : Fin 64) (k : Fin 1024) :
    lidx_main_v19 (ix4 b h s d) k = ix4 b h s k := by
  funext a; match a with | ⟨0, _⟩ => rfl | ⟨1, _⟩ => rfl | ⟨2, _⟩ => rfl | ⟨3, _⟩ => rfl

/-- The output's contraction reads the value array at (b, h, k, d). -/
theorem ridx_v19_ix4 (b : Fin 4) (h : Fin 16) (s : Fin 1024) (d : Fin 64) (k : Fin 1024) :
    ridx_main_v19 (ix4 b h s d) k = ix4 b h k d := by
  funext a; match a with | ⟨0, _⟩ => rfl | ⟨1, _⟩ => rfl | ⟨2, _⟩ => rfl | ⟨3, _⟩ => rfl

variable (x0 x1 x2 : (⟨S4x16x1024x64, .f32⟩ : BufTy).Contents (Elt Ideal))
  (x3 : (⟨S4x16x1024x1, .f32⟩ : BufTy).Contents (Elt Ideal))
  (x4 : (⟨S4x1x1024x1024, .i32⟩ : BufTy).Contents (Elt Ideal))

/-! ## The scaled query -/

/-- The scaling column divided by eight is the column times one eighth. -/
theorem v1_apply (b : Fin 4) (h : Fin 16) (s : Fin 1024) (z : Fin 1) :
    val_main_v1 (F := Ideal) x3 (ix4 b h s z) = x3 (ix4 b h s z) * eighth := by
  rw [val_main_v1_apply, val_main_v0_apply, val_main_cst_apply]
  exact div_eight _

/-- The scaled query: the query entry times the row's scaling entry times one eighth. -/
theorem v3_apply (b : Fin 4) (h : Fin 16) (s : Fin 1024) (d : Fin 64) :
    val_main_v3 (F := Ideal) x0 x3 (ix4 b h s d) = x0 (ix4 b h s d) * (x3 (ix4 b h s (0 : Fin 1)) * eighth) := by
  rw [val_main_v3_apply, val_main_v2_apply, idx_v2_ix4, v1_apply]
  rfl

/-! ## The masked score -/

/-- The raw score: the inner product over the features of the scaled query row with the key row. -/
theorem v4_apply (b : Fin 4) (h : Fin 16) (s t : Fin 1024) :
    val_main_v4 (F := Ideal) x0 x1 x3 (ix4 b h s t)
      = ∑ d : Fin 64, x0 (ix4 b h s d) * (x3 (ix4 b h s (0 : Fin 1)) * eighth) * x1 (ix4 b h t d) := by
  rw [val_main_v4_apply]
  refine Finset.sum_congr rfl fun k _ => ?_
  rw [lidx_v4_ix4, ridx_v4_ix4, v3_apply]

/-- The masked score is the specification's: the fill value where the mask word is zero, the raw score elsewhere. -/
theorem v7_apply (b : Fin 4) (h : Fin 16) (s t : Fin 1024) :
    val_main_v7 (F := Ideal) x0 x1 x3 x4 (ix4 b h s t) = Cert.AttnSpec.score x0 x1 x3 x4 b h s t := by
  rw [val_main_v7_apply, val_main_call0_v1_apply, idx_call0_v1_ix4, val_main_v6_apply, val_main_v5_apply,
    val_main_c_apply, val_main_call0_v2_apply, val_main_call0_v0_apply, val_main_cst_0_apply, v4_apply]
  rfl

/-! ## The row's maximum -/

/-- The word 0xFF800000 denotes minus infinity, the least extended real. -/
theorem ofBits_neg_inf : Ideal.ofBits .f32 0xFF800000#32 = (⊥ : EReal) := by
  simp [Ideal.ofBits, Ideal.ieee]

/-- Over the row (b, h, s) of a [4, 16, 1024, 1024] array, the index with key coordinate k inserted is (b, h, s, k). -/
theorem lift_ix3 (hr : S4x16x1024x1024.Reduces [3] S4x16x1024) (b : Fin 4) (h : Fin 16) (s : Fin 1024)
    (k : Fin (S4x16x1024x1024.size 3)) :
    hr.lift (ix3 b h s) k = ix4 b h s (⟨k.val, k.isLt⟩ : Fin 1024) := by
  funext c; apply Fin.ext
  match c with
  | ⟨0, _⟩ => rfl
  | ⟨1, _⟩ => rfl
  | ⟨2, _⟩ => rfl
  | ⟨3, _⟩ => rfl

/-- A maximum-reduce along the key axis started from minus infinity is, at the row (b, h, s), the fold of the maximum
    from the least element over the row's 1024 entries. -/
theorem hostMax_row (x : (⟨S4x16x1024x1024, .f32⟩ : BufTy).Contents (Elt Ideal)) (b : Fin 4) (h : Fin 16) (s : Fin 1024) :
    Host.reduce (FloatOps.maximumf (F := Ideal) (φ := .f32)) x (val_main_cst_1 (F := Ideal))
        reducesTo_S4x16x1024x1024_S4x16x1024_d3 h_S_ (ix3 b h s)
      = (Finset.univ : Finset (Fin 1024)).fold max (⊥ : EReal) (fun t => x (ix4 b h s t)) := by
  have hr : S4x16x1024x1024.Reduces [3] S4x16x1024 := by decide
  rw [Host.reduce_eq_fold_single (FloatOps.maximumf (F := Ideal) (φ := .f32)) x _ reducesTo_S4x16x1024x1024_S4x16x1024_d3 hr h_S_]
  have hf : (x ∘ hr.lift (ix3 b h s)) = fun t : Fin 1024 => x (ix4 b h s t) :=
    funext fun k => congrArg x (lift_ix3 hr b h s k)
  have hi : val_main_cst_1 (F := Ideal) (Shape.Idx.first h_S_) = (⊥ : EReal) :=
    (val_main_cst_1_apply _).trans ofBits_neg_inf
  exact congrArg₂ (fun (e : EReal) (f : Fin 1024 → EReal) => Finset.fold max e f (Finset.univ : Finset (Fin 1024))) hi hf

/-- The reduce's value at a row is the specification's row maximum. -/
theorem v8_apply (b : Fin 4) (h : Fin 16) (s : Fin 1024) :
    val_main_v8 (F := Ideal) x0 x1 x3 x4 (ix3 b h s) = Cert.AttnSpec.rowMax x0 x1 x3 x4 b h s := by
  unfold val_main_v8
  rw [hostMax_row]
  exact congrArg (fun f : Fin 1024 → EReal => Finset.fold max (⊥ : EReal) f (Finset.univ : Finset (Fin 1024)))
    (funext fun t => v7_apply x0 x1 x3 x4 b h s t)

/-- Taking the maximum with minus infinity once more changes nothing. -/
theorem v10_apply (b : Fin 4) (h : Fin 16) (s : Fin 1024) :
    val_main_v10 (F := Ideal) x0 x1 x3 x4 (ix3 b h s) = Cert.AttnSpec.rowMax x0 x1 x3 x4 b h s := by
  rw [val_main_v10_apply, val_main_v9_apply, val_main_cst_2_apply, v8_apply]
  refine (congrArg (fun e : EReal => max e (Cert.AttnSpec.rowMax x0 x1 x3 x4 b h s)) ofBits_neg_inf).trans ?_
  exact max_eq_right bot_le

/-! ## The weights and the attention matrix -/

/-- The unnormalised weight: the exponential of the score less the row's maximum. -/
theorem v14_apply (b : Fin 4) (h : Fin 16) (s t : Fin 1024) :
    val_main_v14 (F := Ideal) x0 x1 x3 x4 (ix4 b h s t) = Cert.AttnSpec.weight x0 x1 x3 x4 b h s t := by
  rw [val_main_v14_apply, val_main_v13_apply, val_main_v12_apply, idx_v12_ix4, val_main_v11_apply, idx_v11_ix4,
    v10_apply, v7_apply]
  rfl

/-- The row sum, started from zero, is the sum of the row's weights. -/
theorem v15_apply (b : Fin 4) (h : Fin 16) (s : Fin 1024) :
    val_main_v15 (F := Ideal) x0 x1 x3 x4 (ix3 b h s) = ∑ k : Fin 1024, Cert.AttnSpec.weight x0 x1 x3 x4 b h s k := by
  rw [val_main_v15_apply, val_main_cst_3_apply]
  refine (congrArg₂ (fun (e r : EReal) => e + r) Ideal.ofBits_zero_f32
    (Finset.sum_congr rfl fun k _ => ?_)).trans (zero_add _)
  rw [idx_v15_ix3, v14_apply]

/-- The attention weight: the weight divided by the row's sum. -/
theorem v18_apply (b : Fin 4) (h : Fin 16) (s t : Fin 1024) :
    val_main_v18 (F := Ideal) x0 x1 x3 x4 (ix4 b h s t) = Cert.AttnSpec.attn x0 x1 x3 x4 b h s t := by
  rw [val_main_v18_apply, val_main_v17_apply, idx_v17_ix4, val_main_v16_apply, idx_v16_ix4, v15_apply, v14_apply]
  rfl

/-- The output: the attention-weighted sum of the value rows. -/
theorem v19_apply (b : Fin 4) (h : Fin 16) (s : Fin 1024) (d : Fin 64) :
    val_main_v19 (F := Ideal) x0 x1 x2 x3 x4 (ix4 b h s d) = Cert.AttnSpec.out x0 x1 x2 x3 x4 b h s d := by
  rw [val_main_v19_apply]
  refine Finset.sum_congr rfl fun k _ => ?_
  rw [lidx_v19_ix4, ridx_v19_ix4, v18_apply]

/-! ## The two results as arrays -/

/-- The reference's attention matrix is the specification's. -/
theorem ref_attn : val_main_v18 (F := Ideal) x0 x1 x3 x4 = Cert.AttnSpec.attnArr x0 x1 x3 x4 := by
  funext i
  refine (congrArg (val_main_v18 (F := Ideal) x0 x1 x3 x4) (ValueIdx.eq_ix4 i)).trans ?_
  exact v18_apply x0 x1 x3 x4 (i 0) (i 1) (i 2) (i 3)

/-- The reference's output is the specification's. -/
theorem ref_out : val_main_v19 (F := Ideal) x0 x1 x2 x3 x4 = Cert.AttnSpec.outArr x0 x1 x2 x3 x4 := by
  funext i
  refine (congrArg (val_main_v19 (F := Ideal) x0 x1 x2 x3 x4) (ValueIdx.eq_ix4 i)).trans ?_
  exact v19_apply x0 x1 x2 x3 x4 (i 0) (i 1) (i 2) (i 3)

end Cert.ReferenceIdeal.RefSpec

end
-- ==== Proof.lean ====
/-
  The kernel and its reference compute the same masked scaled dot-product attention.

  Both programs take queries, keys and values of shape [4, 16, 1024, 64], a column [4, 16, 1024, 1] that scales each
  query row, and a mask of words [4, 1, 1024, 1024] shared by the heads, and return the attention matrix
  [4, 16, 1024, 1024] and the attention-weighted values [4, 16, 1024, 64]. Read over the extended reals, where every
  float operation is exact and a change of format is the identity, each program's two results are the arrays of the
  specification (Proof/AttnSpec.lean): the masked score (the fill value where the mask word is zero, else the inner
  product of the scaled query row with the key row), less the row's maximum, exponentiated, divided by the row's sum,
  and the sum of the value rows weighted by it.

  The kernel works on a grid of 4 × 4 × 16 points — batch, tile of 256 query positions, head — and at each point
  computes the tile's rows of the attention matrix for that batch and head from the query tile, the head's keys and
  the tile's rows of the mask, and the tile's rows of the output from them and the head's values; the 256 points'
  blocks tile the two result arrays (Proof/BodyPieces.lean, BodyValue.lean, Blocks.lean, KernelValue.lean). The
  reference computes the same entries by whole-array operations (Proof/RefIsSpec.lean). The two differ in one place:
  the kernel multiplies the scaling column by one eighth where the reference divides it by eight, which is the same
  function on every extended real. No step uses that the inputs are finite.

  The three frames are the generated ones (the reference's is its run with the results dropped); the kernel's
  idealization rewrote nothing, so there is nothing to preserve.
-/
import proofs.«136639_j23476291240049_2_alg».proof.Defs
import proofs.«136639_j23476291240049_2_alg».proof.Proof.Gen.Kernel
import proofs.«136639_j23476291240049_2_alg».proof.Proof.Gen.Kernel.Skeleton
import proofs.«136639_j23476291240049_2_alg».proof.Proof.Gen.Kernel.Launch
import proofs.«136639_j23476291240049_2_alg».proof.Proof.Gen.Kernel.Points
import proofs.«136639_j23476291240049_2_alg».proof.Proof.Gen.Kernel.Frame
import proofs.«136639_j23476291240049_2_alg».proof.Proof.Gen.KernelIdeal
import proofs.«136639_j23476291240049_2_alg».proof.Proof.Gen.KernelIdeal.Skeleton
import proofs.«136639_j23476291240049_2_alg».proof.Proof.Gen.KernelIdeal.Launch
import proofs.«136639_j23476291240049_2_alg».proof.Proof.Gen.KernelIdeal.Points
import proofs.«136639_j23476291240049_2_alg».proof.Proof.Gen.KernelIdeal.Frame
import proofs.«136639_j23476291240049_2_alg».proof.Proof.Gen.ReferenceIdeal
import proofs.«136639_j23476291240049_2_alg».proof.Proof.Gen.Pre_finite_inputs
import proofs.«136639_j23476291240049_2_alg».proof.Proof.Gen.KernelIdeal.Value
import proofs.«136639_j23476291240049_2_alg».proof.Proof.Gen.ReferenceIdeal.Run
import proofs.«136639_j23476291240049_2_alg».proof.Proof.Gen.ReferenceIdeal.Read
import proofs.«136639_j23476291240049_2_alg».proof.Proof.KernelValue
import proofs.«136639_j23476291240049_2_alg».proof.Proof.RefIsSpec
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with what it says of the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's idealization rewrote no operation. -/
theorem preserves : Cert.preserves_Kernel_KernelIdeal := trivial

/-- Over the extended reals, from memories that agree on the arguments, the kernel's two result arrays and the
    reference's are the specification's output and attention matrix of those arguments. -/
theorem algebraic : Cert.algebraic_KernelIdeal_ReferenceIdeal := by
  intro m ρ m' ρ' _ hagree
  refine ⟨fun c => Cert.KernelIdeal.AttnValue.outOf m c, fun c => Cert.KernelIdeal.AttnValue.attnOf m c,
    Cert.KernelIdeal.AttnValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v19_eq, Cert.ReferenceIdeal.RefSpec.ref_out,
      (hagree c).1, (hagree c).2.1, (hagree c).2.2.1, (hagree c).2.2.2.1, (hagree c).2.2.2.2]
    rfl
  · refine (Cert.ReferenceIdeal.Read.val_main_v18_eq _ _ _ _).trans ?_
    rw [Cert.ReferenceIdeal.RefSpec.ref_attn, (hagree c).1, (hagree c).2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
